-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩
abbrev S10000 : Shape := ⟨1, ![10000]⟩

abbrev nBuf : Space → Nat
  | .hbm => 79
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x40, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x40, .f32⟩
  | .hbm, ⟨70, _⟩ => ⟨S1600000x1, .f32⟩
  | .hbm, ⟨71, _⟩ => ⟨S1600000x40, .f32⟩
  | .hbm, ⟨72, _⟩ => ⟨S1600000x40, .f32⟩
  | .hbm, ⟨73, _⟩ => ⟨S_, .f32⟩
  | .hbm, ⟨74, _⟩ => ⟨S100000x40, .f32⟩
  | .hbm, ⟨75, _⟩ => ⟨S1600000x1, .i32⟩
  | .hbm, ⟨76, _⟩ => ⟨S100000x40, .f32⟩
  | .hbm, ⟨77, _⟩ => ⟨S1x40, .f32⟩
  | .hbm, ⟨78, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x40, .f32⟩
  | .local _ .vmem, ⟨17, _⟩ => ⟨S10000x40, .f32⟩
  | .local _ .vmem, ⟨18, _⟩ => ⟨S10000x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | .local _ .vmem, ⟨23, _⟩ => ⟨S10000x1, .f32⟩
  | .local _ .vmem, ⟨24, _⟩ => ⟨S10000x1, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  broadcasts_S10000x1_S10000x40 : S10000x1.Broadcasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x40.size a ≤ S100000x40.size a
  hwx3_1 : ∀ i : grid3.Coords, EltTy.bits .f32 = 32 ∨ (Rect.block (s := S100000x40) S10000x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x40.size a ≤ S100000x40.size a
  hwx3_4 : ∀ i : grid3.Coords, EltTy.bits .f32 = 32 ∨ (Rect.block (s := S100000x40) S10000x40.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S10000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x40, .f32⟩
  | 5 => ⟨S40, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x40, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x40, .f32⟩
  | 106 => ⟨S1600000x1, .f32⟩
  | 107 => ⟨S1600000x40, .f32⟩
  | 108 => ⟨S1600000x40, .f32⟩
  | 109 => ⟨S_, .f32⟩
  | 110 => ⟨S100000x40, .f32⟩
  | 111 => ⟨S1600000x1, .i32⟩
  | 112 => ⟨S100000x40, .f32⟩
  | 113 => ⟨S100000, .f32⟩
  | 114 => ⟨S100000x1, .f32⟩
  | 115 => ⟨S100000x40, .f32⟩
  | 116 => ⟨S100000x40, .f32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x128, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result array named.

  The program is four pipelined kernel regions among three stretches of host operations. Its run leaves every
  buffer at the last of a chain of valuations: the launch memory, then alternately "after a stretch of host
  operations" and "a region's arrays at what its write-backs leave, every other buffer as entered". This module
  states the run with the result array at that last valuation's entry and the six argument arrays unchanged; the
  other modules compute that entry.
-/
import proofs.«130149_j73942156968323_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    valuation's entry for it, and the argument arrays end as launched. -/
theorem run : θ_run defs (onTc (τ := τ) (main (F := F))) ⟨m, fun _ => 0, ρ⟩ (fun r => ∀ c : Dev nD,
      r.2.mem ((c.tc : Thread nD τ).loc main_v59) = W7 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v59 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Spec.lean ====
/-
  The mathematics of a two-layer graph convolution, row by row, over the extended reals.

  One layer sends a node-feature table `X` (one row per node) to `agg + h * d + b`, where `h = X · W` is the
  projected table, `agg` the table of neighbour sums (a host scatter-add, the same operations in both programs),
  `d` one scale per node and `b` one bias per feature. The first layer ends with a rectifier; the second with a
  log-softmax along each row. Every output row depends on the same row of the operands only, which is why a kernel
  may compute the rows in blocks.
-/
import Idealize.ShloMosaic.PureOps.Ideal
import Idealize.ShloMosaic.Lib.ValueIdx

noncomputable section

open scoped BigOperators

namespace Cert.Gcn

open Idealize.ShloMosaic Idealize.ShloMosaic.ValueIdx

/-- The product of an `M × K` table with a `K × N` matrix: entry `(r, q)` is the sum over `c` of
    `A (r, c) * B (c, q)`. -/
def matProd {M K N : ℕ} (A : FVec Ideal ⟨2, ![M, K]⟩ .f32) (B : FVec Ideal ⟨2, ![K, N]⟩ .f32) :
    FVec Ideal ⟨2, ![M, N]⟩ .f32 :=
  fun i => ∑ c : Fin K, A (ix2 (i 0) c) * B (ix2 c (i 1))

/-- One layer before its activation: neighbour sums, plus the node's own projected row scaled by the node's
    scale, plus the bias of the feature. -/
def combine {M N : ℕ} (A H : FVec Ideal ⟨2, ![M, N]⟩ .f32) (d : FVec Ideal ⟨1, ![M]⟩ .f32)
    (b : FVec Ideal ⟨1, ![N]⟩ .f32) : FVec Ideal ⟨2, ![M, N]⟩ .f32 :=
  fun i => A i + H i * d (ix1 (i 0)) + b (ix1 (i 1))

/-- The first layer's output: the rectifier of `combine` (the maximum with the zero word). -/
def reluRows {M N : ℕ} (A H : FVec Ideal ⟨2, ![M, N]⟩ .f32) (d : FVec Ideal ⟨1, ![M]⟩ .f32)
    (b : FVec Ideal ⟨1, ![N]⟩ .f32) : FVec Ideal ⟨2, ![M, N]⟩ .f32 :=
  fun i => max (combine A H d b i) (Ideal.ofBits .f32 0x00000000#32)

/-- The maximum of row `r`, folded from the word of minus infinity. -/
def rowMax {M N : ℕ} (X : FVec Ideal ⟨2, ![M, N]⟩ .f32) (r : Fin M) : Ideal .f32 :=
  (Finset.univ : Finset (Fin N)).fold max (Ideal.ofBits .f32 0xFF800000#32) (fun c => X (ix2 r c))

/-- The log-softmax along each row: the entry minus the row's maximum, minus the logarithm of the sum over the row
    of the exponentials of the shifted entries. -/
def logSoftmaxRows {M N : ℕ} (X : FVec Ideal ⟨2, ![M, N]⟩ .f32) : FVec Ideal ⟨2, ![M, N]⟩ .f32 :=
  fun i => (X i - rowMax X (i 0)) - Ideal.log (∑ c : Fin N, Ideal.exp (X (ix2 (i 0) c) - rowMax X (i 0)))

/-- The second layer's output: the log-softmax along the rows of `combine`. -/
def logSoftmaxLayer {M N : ℕ} (A H : FVec Ideal ⟨2, ![M, N]⟩ .f32) (d : FVec Ideal ⟨1, ![M]⟩ .f32)
    (b : FVec Ideal ⟨1, ![N]⟩ .f32) : FVec Ideal ⟨2, ![M, N]⟩ .f32 :=
  logSoftmaxRows (combine A H d b)

/-- The log-softmax of a row depends on that row only: if row `p` of one table is row `r` of another, the two
    log-softmaxes agree along it. -/
theorem logSoftmaxRows_congr_row {M M' N : ℕ} (Y : FVec Ideal ⟨2, ![M, N]⟩ .f32) (X : FVec Ideal ⟨2, ![M', N]⟩ .f32)
    (p : Fin M) (r : Fin M') (h : ∀ c : Fin N, Y (ix2 p c) = X (ix2 r c)) (q : Fin N) :
    logSoftmaxRows Y (ix2 p q) = logSoftmaxRows X (ix2 r q) := by
  have hf : (fun c : Fin N => Y (ix2 p c)) = fun c => X (ix2 r c) := funext h
  have hm : rowMax Y p = rowMax X r := by unfold rowMax; rw [hf]
  show (Y (ix2 p q) - rowMax Y p) - Ideal.log (∑ c : Fin N, Ideal.exp (Y (ix2 p c) - rowMax Y p))
     = (X (ix2 r q) - rowMax X r) - Ideal.log (∑ c : Fin N, Ideal.exp (X (ix2 r c) - rowMax X r))
  rw [hm, h q]
  refine congrArg (fun s => (X (ix2 r q) - rowMax X r) - Ideal.log s) (Finset.sum_congr rfl fun c _ => ?_)
  rw [h c]

end Cert.Gcn

end
-- ==== Proof.Model.lean ====
/-
  The graph convolution's host-side pieces as whole-array functions, and the network's output as one function of
  the six argument arrays.

  Both programs take the edge list apart the same way: the sources and the targets of the edges (rows 0 and 1 of
  the edge array); each node's degree with a self loop, a scatter-add of ones over the targets plus one, and its
  inverse square root; each edge's weight, the product of the two end nodes' inverse square roots (a negative node
  number is first wrapped round by the number of nodes, as jnp indexing does); and, for a table `h` of node rows,
  the neighbour sums — a scatter-add over the targets of the sources' rows times the edge weights. These are the
  same host operations in both programs, so they are carried as named functions and never opened.

  The network is: project, aggregate, add the node's own row scaled by its squared inverse square-root degree, add
  the bias, rectify; then the same with the second layer's weights, ending in a log-softmax along each row.
-/
import proofs.«130149_j73942156968323_1_alg».proof.Proof.Gen.ReferenceIdeal
import proofs.«130149_j73942156968323_1_alg».proof.Proof.Spec

noncomputable section

namespace Cert.Gcn

open Cert.ReferenceIdeal Cert.ReferenceIdeal.Gen Idealize.ShloMosaic Idealize.ShloMosaic.ValueIdx

/-- The sources of the edges: row 0 of the edge array. -/
def srcOf (e : IVec S2x1600000 32) : IVec S1600000 32 :=
  shapeCast _ (extractStridedSlice S1x1600000 ![0, 0] e slices_S2x1600000_S1x1600000_0_0) shapeCasts_S1x1600000_S1600000

/-- The targets of the edges: row 1 of the edge array. -/
def dstOf (e : IVec S2x1600000 32) : IVec S1600000 32 :=
  shapeCast _ (extractStridedSlice S1x1600000 ![1, 0] e slices_S2x1600000_S1x1600000_1_0) shapeCasts_S1x1600000_S1600000

/-- Node numbers as a column of gather positions: a negative number is wrapped round by the number of nodes. -/
def wrapIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The inverse square root of each node's degree with a self loop. -/
def dinvOf (dst : IVec S1600000 32) : FVec Ideal S100000 .f32 :=
  Host.rsqrt (F := Ideal) (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32)))

/-- Each edge's weight: the product of its two end nodes' inverse square-root degrees. -/
def normOf (src dst : IVec S1600000 32) (dinv : FVec Ideal S100000 .f32) : FVec Ideal S1600000 .f32 :=
  mulf (F := Ideal) (Host.gather gather_S100000_S1600000x1_S1600000_n_0_n_n_0_1_1 dinv (wrapIdx src))
    (Host.gather gather_S100000_S1600000x1_S1600000_n_0_n_n_0_1_1 dinv (wrapIdx dst))

/-- The neighbour sums of a 64-column table: the sources' rows times the edge weights, added up over the targets. -/
def agg64 (h : FVec Ideal S100000x64 .f32) (src dst : IVec S1600000 32) (norm : FVec Ideal S1600000 .f32) :
    FVec Ideal S100000x64 .f32 :=
  Host.scatterAdd (F := Ideal) scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h (wrapIdx src))
      (broadcastInDim S1600000x64 ![0, 1] bcast_S1600000x1_S1600000x64_0_1
        (broadcastInDim S1600000x1 ![0] bcast_S1600000_S1600000x1_0 norm)))

/-- The neighbour sums of a 40-column table. -/
def agg40 (h : FVec Ideal S100000x40 .f32) (src dst : IVec S1600000 32) (norm : FVec Ideal S1600000 .f32) :
    FVec Ideal S100000x40 .f32 :=
  Host.scatterAdd (F := Ideal) scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf (Host.gather gather_S100000x40_S1600000x1_S1600000x40_1_0_n_n_0_1_140 h (wrapIdx src))
      (broadcastInDim S1600000x40 ![0, 1] bcast_S1600000x1_S1600000x40_0_1
        (broadcastInDim S1600000x1 ![0] bcast_S1600000_S1600000x1_0 norm)))

/-- The first layer's output from the arguments: project, aggregate, combine, rectify. -/
def layer1 (x : FVec Ideal S100000x128 .f32) (e : IVec S2x1600000 32) (w1 : FVec Ideal S128x64 .f32)
    (b1 : FVec Ideal S64 .f32) : FVec Ideal S100000x64 .f32 :=
  reluRows (agg64 (matProd x w1) (srcOf e) (dstOf e) (normOf (srcOf e) (dstOf e) (dinvOf (dstOf e)))) (matProd x w1)
    (mulf (dinvOf (dstOf e)) (dinvOf (dstOf e))) b1

/-- The network's output from the six arguments. -/
def gcnOut (x : FVec Ideal S100000x128 .f32) (e : IVec S2x1600000 32) (w1 : FVec Ideal S128x64 .f32)
    (b1 : FVec Ideal S64 .f32) (w2 : FVec Ideal S64x40 .f32) (b2 : FVec Ideal S40 .f32) : FVec Ideal S100000x40 .f32 :=
  logSoftmaxLayer
    (agg40 (matProd (layer1 x e w1 b1) w2) (srcOf e) (dstOf e) (normOf (srcOf e) (dstOf e) (dinvOf (dstOf e))))
    (matProd (layer1 x e w1 b1) w2) (mulf (dinvOf (dstOf e)) (dinvOf (dstOf e))) b2

end Cert.Gcn

end
-- ==== Proof.KernelHost.lean ====
/-
  The kernel program's three stretches of host operations, each read from an arbitrary valuation of the buffers.

  Before the first region the host takes the edge list apart and computes the inverse square-root degrees, the edge
  weights and the column of squared inverse square-root degrees; before the second and before the fourth region it
  aggregates the projected table over the edges and lays the bias out as a row. The aggregation, degree and
  edge-weight operations are the model's named functions.
-/
import proofs.«130149_j73942156968323_1_alg».proof.Proof.Gen.KernelIdeal.Frame
import proofs.«130149_j73942156968323_1_alg».proof.Proof.Model
import Idealize.ShloMosaic.Lib.StableHlo.Run

set_option maxRecDepth 16384

noncomputable section

namespace Cert.KernelIdeal.HostStretches

open Cert.KernelIdeal Cert.KernelIdeal.Gen Cert.Gcn
open Idealize.ShloMosaic Idealize.ShloMosaic.TcCoe Idealize.SL.Sem Idealize.ShloMosaic.StableHlo

/-! ## Before the first region -/

set_option maxHeartbeats 4000000 in
/-- The edges' sources. -/
theorem h0_v1 (W : Valuation τ sig (Elt Ideal)) :
    StableHlo.after (hostOps0 (F := Ideal)) W (Proc.devRef .tc main_v1) = srcOf (W (Proc.devRef .tc main_arg1)) := by
  simp only [hostOps0]
  after_results_simp
  first | done | rfl

set_option maxHeartbeats 4000000 in
/-- The edges' targets. -/
theorem h0_v3 (W : Valuation τ sig (Elt Ideal)) :
    StableHlo.after (hostOps0 (F := Ideal)) W (Proc.devRef .tc main_v3) = dstOf (W (Proc.devRef .tc main_arg1)) := by
  simp only [hostOps0]
  after_results_simp
  first | done | rfl

set_option maxHeartbeats 4000000 in
/-- The edge weights. -/
theorem h0_v25 (W : Valuation τ sig (Elt Ideal)) :
    StableHlo.after (hostOps0 (F := Ideal)) W (Proc.devRef .tc main_v25) = normOf (srcOf (W (Proc.devRef .tc main_arg1))) (dstOf (W (Proc.devRef .tc main_arg1))) (dinvOf (dstOf (W (Proc.devRef .tc main_arg1)))) := by
  simp only [hostOps0]
  after_results_simp
  first | done | rfl

set_option maxHeartbeats 4000000 in
/-- The squared inverse square-root degrees, kept as a column. -/
theorem h0_v27 (W : Valuation τ sig (Elt Ideal)) :
    StableHlo.after (hostOps0 (F := Ideal)) W (Proc.devRef .tc main_v27) = shapeCast S100000x1 (mulf (dinvOf (dstOf (W (Proc.devRef .tc main_arg1)))) (dinvOf (dstOf (W (Proc.devRef .tc main_arg1))))) shapeCasts_S100000_S100000x1 := by
  simp only [hostOps0]
  after_results_simp
  first | done | rfl

set_option maxHeartbeats 4000000 in
/-- The first stretch leaves this argument as it was. -/
theorem h0_arg0 (W : Valuation τ sig (Elt Ideal)) :
    StableHlo.after (hostOps0 (F := Ideal)) W (Proc.devRef .tc main_arg0) = (W (Proc.devRef .tc main_arg0)) := by
  simp only [hostOps0]
  after_results_simp
  first | done | rfl

set_option maxHeartbeats 4000000 in
/-- The first stretch leaves this argument as it was. -/
theorem h0_arg2 (W : Valuation τ sig (Elt Ideal)) :
    StableHlo.after (hostOps0 (F := Ideal)) W (Proc.devRef .tc main_arg2) = (W (Proc.devRef .tc main_arg2)) := by
  simp only [hostOps0]
  after_results_simp
  first | done | rfl

set_option maxHeartbeats 4000000 in
/-- The first stretch leaves this argument as it was. -/
theorem h0_arg3 (W : Valuation τ sig (Elt Ideal)) :
    StableHlo.after (hostOps0 (F := Ideal)) W (Proc.devRef .tc main_arg3) = (W (Proc.devRef .tc main_arg3)) := by
  simp only [hostOps0]
  after_results_simp
  first | done | rfl

set_option maxHeartbeats 4000000 in
/-- The first stretch leaves this argument as it was. -/
theorem h0_arg4 (W : Valuation τ sig (Elt Ideal)) :
    StableHlo.after (hostOps0 (F := Ideal)) W (Proc.devRef .tc main_arg4) = (W (Proc.devRef .tc main_arg4)) := by
  simp only [hostOps0]
  after_results_simp
  first | done | rfl

set_option maxHeartbeats 4000000 in
/-- The first stretch leaves this argument as it was. -/
theorem h0_arg5 (W : Valuation τ sig (Elt Ideal)) :
    StableHlo.after (hostOps0 (F := Ideal)) W (Proc.devRef .tc main_arg5) = (W (Proc.devRef .tc main_arg5)) := by
  simp only [hostOps0]
  after_results_simp
  first | done | rfl

/-! ## Before the second region -/

set_option maxHeartbeats 4000000 in
/-- The neighbour sums of the first projection. -/
theorem h1_v41 (W : Valuation τ sig (Elt Ideal)) :
    StableHlo.after (hostOps1 (F := Ideal)) W (Proc.devRef .tc main_v41) = agg64 (W (Proc.devRef .tc main_v28)) (W (Proc.devRef .tc main_v1)) (W (Proc.devRef .tc main_v3)) (W (Proc.devRef .tc main_v25)) := by
  simp only [hostOps1]
  after_results_simp
  first | done | rfl

set_option maxHeartbeats 4000000 in
/-- The first bias, laid out as a row. -/
theorem h1_v42 (W : Valuation τ sig (Elt Ideal)) :
    StableHlo.after (hostOps1 (F := Ideal)) W (Proc.devRef .tc main_v42) = shapeCast S1x64 (W (Proc.devRef .tc main_arg3)) shapeCasts_S64_S1x64 := by
  simp only [hostOps1]
  after_results_simp
  first | done | rfl

set_option maxHeartbeats 4000000 in
/-- The second stretch leaves this buffer as it was. -/
theorem h1_v28 (W : Valuation τ sig (Elt Ideal)) :
    StableHlo.after (hostOps1 (F := Ideal)) W (Proc.devRef .tc main_v28) = (W (Proc.devRef .tc main_v28)) := by
  simp only [hostOps1]
  after_results_simp
  first | done | rfl

set_option maxHeartbeats 4000000 in
/-- The second stretch leaves this buffer as it was. -/
theorem h1_v27 (W : Valuation τ sig (Elt Ideal)) :
    StableHlo.after (hostOps1 (F := Ideal)) W (Proc.devRef .tc main_v27) = (W (Proc.devRef .tc main_v27)) := by
  simp only [hostOps1]
  after_results_simp
  first | done | rfl

set_option maxHeartbeats 4000000 in
/-- The second stretch leaves this buffer as it was. -/
theorem h1_v1 (W : Valuation τ sig (Elt Ideal)) :
    StableHlo.after (hostOps1 (F := Ideal)) W (Proc.devRef .tc main_v1) = (W (Proc.devRef .tc main_v1)) := by
  simp only [hostOps1]
  after_results_simp
  first | done | rfl

set_option maxHeartbeats 4000000 in
/-- The second stretch leaves this buffer as it was. -/
theorem h1_v3 (W : Valuation τ sig (Elt Ideal)) :
    StableHlo.after (hostOps1 (F := Ideal)) W (Proc.devRef .tc main_v3) = (W (Proc.devRef .tc main_v3)) := by
  simp only [hostOps1]
  after_results_simp
  first | done | rfl

set_option maxHeartbeats 4000000 in
/-- The second stretch leaves this buffer as it was. -/
theorem h1_v25 (W : Valuation τ sig (Elt Ideal)) :
    StableHlo.after (hostOps1 (F := Ideal)) W (Proc.devRef .tc main_v25) = (W (Proc.devRef .tc main_v25)) := by
  simp only [hostOps1]
  after_results_simp
  first | done | rfl

set_option maxHeartbeats 4000000 in
/-- The second stretch leaves this buffer as it was. -/
theorem h1_arg4 (W : Valuation τ sig (Elt Ideal)) :
    StableHlo.after (hostOps1 (F := Ideal)) W (Proc.devRef .tc main_arg4) = (W (Proc.devRef .tc main_arg4)) := by
  simp only [hostOps1]
  after_results_simp
  first | done | rfl

set_option maxHeartbeats 4000000 in
/-- The second stretch leaves this buffer as it was. -/
theorem h1_arg5 (W : Valuation τ sig (Elt Ideal)) :
    StableHlo.after (hostOps1 (F := Ideal)) W (Proc.devRef .tc main_arg5) = (W (Proc.devRef .tc main_arg5)) := by
  simp only [hostOps1]
  after_results_simp
  first | done | rfl

/-! ## Before the fourth region -/

set_option maxHeartbeats 4000000 in
/-- The neighbour sums of the second projection. -/
theorem h3_v57 (W : Valuation τ sig (Elt Ideal)) :
    StableHlo.after (hostOps3 (F := Ideal)) W (Proc.devRef .tc main_v57) = agg40 (W (Proc.devRef .tc main_v44)) (W (Proc.devRef .tc main_v1)) (W (Proc.devRef .tc main_v3)) (W (Proc.devRef .tc main_v25)) := by
  simp only [hostOps3]
  after_results_simp
  first | done | rfl

set_option maxHeartbeats 4000000 in
/-- The second bias, laid out as a row. -/
theorem h3_v58 (W : Valuation τ sig (Elt Ideal)) :
    StableHlo.after (hostOps3 (F := Ideal)) W (Proc.devRef .tc main_v58) = shapeCast S1x40 (W (Proc.devRef .tc main_arg5)) shapeCasts_S40_S1x40 := by
  simp only [hostOps3]
  after_results_simp
  first | done | rfl

set_option maxHeartbeats 4000000 in
/-- The third stretch leaves this buffer as it was. -/
theorem h3_v44 (W : Valuation τ sig (Elt Ideal)) :
    StableHlo.after (hostOps3 (F := Ideal)) W (Proc.devRef .tc main_v44) = (W (Proc.devRef .tc main_v44)) := by
  simp only [hostOps3]
  after_results_simp
  first | done | rfl

set_option maxHeartbeats 4000000 in
/-- The third stretch leaves this buffer as it was. -/
theorem h3_v27 (W : Valuation τ sig (Elt Ideal)) :
    StableHlo.after (hostOps3 (F := Ideal)) W (Proc.devRef .tc main_v27) = (W (Proc.devRef .tc main_v27)) := by
  simp only [hostOps3]
  after_results_simp
  first | done | rfl

end Cert.KernelIdeal.HostStretches

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.Region0.lean ====
/-
  Region 0: the first layer's projection, the 100000 × 128 node features times the 128 × 64 weights.

  The kernel computes the product in ten blocks of 10000 rows: at grid point `t` it loads rows
  `10000 t … 10000 t + 9999` of the left table and the whole right matrix, multiplies them (the change of float
  format on the way in is the identity over the extended reals, and the accumulator starts at the zero word), and
  writes the block of the result back to the same rows. Row `r` of the product depends on row `r` of the left
  table only, so each written block is the block of the whole product; the ten blocks cover all rows.
-/
import proofs.«130149_j73942156968323_1_alg».proof.Proof.Gen.KernelIdeal.Frame
import proofs.«130149_j73942156968323_1_alg».proof.Proof.Spec
import proofs.«130149_j73942156968323_1_alg».proof.Proof.LibTwoBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at entry `(p, q)` of the block: the sum over the shared axis of the products of the
    loaded left block's row `p` with the loaded matrix's column `q`. -/
theorem pay (x0 : Vec Ideal S10000x128 .f32) (x1 : Vec Ideal S128x64 .f32) (p : Fin 10000) (q : Fin 64) :
    k0_pay1 (F := Ideal) x0 x1 (ix2 p q) = ∑ c : Fin 128, x0 (ix2 p c) * x1 (ix2 c q) := by
  unfold k0_pay1
  exact Cert.Lib.TwoBlocks.plain_matmul_zero_apply dot_S10000x128_S128x64_S10000x64_1_0_0_1_n_n rfl none _ _ p q

/-- The three windows' block positions over the grid: the left table's and the result's blocks move together down
    the rows, the matrix stays whole. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some grid point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What grid point `t` writes back is block `t` of the whole product of the two arrays as the region finds them. -/
theorem flushed (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q)
    = matProd (V c main_arg0) (V c main_arg2) (((cfg0.win 2).blk t).view.emb (ix2 p q))
  refine (pay (iblk0 V c 0 t) (iblk0 V c 1 t) p q).trans ?_
  unfold matProd
  refine Finset.sum_congr rfl fun k _ => ?_
  have h0 : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 10000 + 1 * p.val = win0_2.index t (0 : Fin 2) * 10000 + 1 * p.val
      omega
    | ⟨1, _⟩ =>
      show win0_0.index t (1 : Fin 2) * 128 + 1 * k.val = k.val
      omega
  have h1 : iblk0 V c 1 t (ix2 k q)
      = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_2.index t (1 : Fin 2) * 64 + 1 * q.val
      omega
  exact congrArg₂ (· * ·) h0 h1

/-- An entry of the result array lies in grid point `t`'s block exactly when each coordinate lies in the block's
    range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v28).slice (win0_2.rect t)).set ↔ _
  rw [View.set_slice_whole, Rect.mem_set_unit]
  exact Iff.rfl

/-- Every entry of the result array is in some grid point's block: row `r` is in block `r / 10000`. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after the region: the whole product of the two arrays as the region found them. -/
theorem arr (c : Dev nD) :
    (dat0 (F := Ideal) V c).arrAt 2 cfg0.N = matProd (V c main_arg0) (V c main_arg2) :=
  (dat0 V c).arrAt_eq_of_cover 2 (matProd (V c main_arg0) (V c main_arg2)) (fun t _ => flushed V c t) cover

end Cert.KernelIdeal.Region0

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.Region1.lean ====
/-
  Region 1: the first layer's combination and rectifier.

  The kernel works on ten blocks of 10000 rows. At grid point `t` it loads rows `10000 t … 10000 t + 9999` of the
  neighbour sums, of the projected table and of the column of node scales, and the one row of biases; it forms
  `agg + h * scale + bias` (the scale spread along the row, the bias down the rows), takes the maximum with zero,
  and writes the block back to the same rows. A row of the result depends on the same row of the operands only, so
  each written block is the block of the whole-array function; the ten blocks cover all rows.
-/
import proofs.«130149_j73942156968323_1_alg».proof.Proof.Gen.KernelIdeal.Frame
import proofs.«130149_j73942156968323_1_alg».proof.Proof.Spec
import proofs.«130149_j73942156968323_1_alg».proof.Proof.LibRowOps

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The block of `agg + h * scale + bias`: the loaded column of scales spread along each row, the loaded row of
    biases spread down the rows. -/
def preBlk (x0 x1 : Vec Ideal S10000x64 .f32) (x2 : Vec Ideal S10000x1 .f32) (x3 : Vec Ideal S1x64 .f32) :
    FVec Ideal S10000x64 .f32 :=
  addf (addf x0 (mulf x1 (broadcastTo S10000x64 x2 broadcasts_S10000x1_S10000x64))) (broadcastTo S10000x64 x3 broadcasts_S1x64_S10000x64)

/-- At entry `(p, q)` of the block: the two tables at `(p, q)`, the scale of row `p`, the bias of column `q`. -/
theorem preBlk_apply (x0 x1 : Vec Ideal S10000x64 .f32) (x2 : Vec Ideal S10000x1 .f32) (x3 : Vec Ideal S1x64 .f32)
    (p : Fin 10000) (q : Fin 64) :
    preBlk x0 x1 x2 x3 (ix2 p q) = x0 (ix2 p q) + x1 (ix2 p q) * x2 (ix2 p (0 : Fin 1)) + x3 (ix2 (0 : Fin 1) q) := by
  show x0 (ix2 p q) + x1 (ix2 p q) * broadcastTo S10000x64 x2 broadcasts_S10000x1_S10000x64 (ix2 p q)
      + broadcastTo S10000x64 x3 broadcasts_S1x64_S10000x64 (ix2 p q) = _
  rw [Cert.Lib.RowOps.broadcastTo_a1_ab_apply x2 broadcasts_S10000x1_S10000x64 p q,
    broadcastTo_1b_ab_apply x3 broadcasts_S1x64_S10000x64 p q]

/-- The body's stored value: the rectifier of the block of `agg + h * scale + bias`. -/
theorem pay (x0 x1 : Vec Ideal S10000x64 .f32) (x2 : Vec Ideal S10000x1 .f32) (x3 : Vec Ideal S1x64 .f32)
    (p : Fin 10000) (q : Fin 64) :
    k1_pay1 (F := Ideal) x0 x1 x2 x3 (ix2 p q) = max (preBlk x0 x1 x2 x3 (ix2 p q)) (Ideal.ofBits .f32 0x00000000#32) := by
  unfold k1_pay1 preBlk
  simp only [shapeCast_self]
  rfl

/-- Row `p` of a block of `agg + h * scale + bias` is row `r` of the whole-array `combine` as soon as the four loaded
    blocks read, along that row, what the whole arrays hold along row `r`. -/
theorem pre_row_abs (y0 y1 : Vec Ideal S10000x64 .f32) (y2 : Vec Ideal S10000x1 .f32) (y3 : Vec Ideal S1x64 .f32)
    (A H : FVec Ideal ⟨2, ![100000, 64]⟩ .f32) (d : FVec Ideal ⟨1, ![100000]⟩ .f32) (b : FVec Ideal ⟨1, ![64]⟩ .f32)
    (p : Fin 10000) (r : Fin 100000) (q : Fin 64)
    (h0 : y0 (ix2 p q) = A (ix2 r q)) (h1 : y1 (ix2 p q) = H (ix2 r q))
    (h2 : y2 (ix2 p (0 : Fin 1)) = d (ix1 r)) (h3 : y3 (ix2 (0 : Fin 1) q) = b (ix1 q)) :
    preBlk y0 y1 y2 y3 (ix2 p q) = combine A H d b (ix2 r q) := by
  rw [preBlk_apply, h0, h1, h2, h3]
  rfl

/-- The five windows' block positions over the grid: the three row-blocked operands and the result move together
    down the rows, the bias row stays whole. -/
theorem idx_facts : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = win1_4.index t (0 : Fin 2)
    ∧ win1_2.index t (1 : Fin 2) = 0 ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks is some grid point's. -/
theorem idx_onto : ∀ q0 : Fin 10, ∃ t : Fin cfg1.N, win1_4.index t = ![q0.val, 0] :=
  (by decide +kernel : ∀ q0 : Fin 10, ∃ t : Fin grid1.N, win1_4.index t = ![q0.val, 0])

variable (V : (c : Dev nD) → (b : Ref sig .tc) → Buf (Elt Ideal) ((c : Thread nD τ).loc b))

/-- Row `p` of grid point `t`'s block of `agg + h * scale + bias` is row `r = 10000 t + p` of the whole-array
    `combine`, when the scale column holds the vector `d` and the bias row the vector `b`. -/
theorem pre_row (c : Dev nD) (t : Fin cfg1.N) (d : FVec Ideal ⟨1, ![100000]⟩ .f32) (b : FVec Ideal ⟨1, ![64]⟩ .f32)
    (hd : ∀ r : Fin 100000, V c main_v27 (ix2 r (0 : Fin 1)) = d (ix1 r))
    (hb : ∀ q : Fin 64, V c main_v42 (ix2 (0 : Fin 1) q) = b (ix1 q))
    (p : Fin 10000) (r : Fin 100000) (hr : r.val = win1_4.index t (0 : Fin 2) * 10000 + p.val) (q : Fin 64) :
    preBlk (iblk1 V c 0 t) (iblk1 V c 1 t) (iblk1 V c 2 t) (iblk1 V c 3 t) (ix2 p q)
      = combine (V c main_v41) (V c main_v28) d b (ix2 r q) := by
  obtain ⟨e0, e1, e2, e3, e4, e5, e6, e7, e8, e9⟩ := idx_facts t
  have h0 : iblk1 V c 0 t (ix2 p q) = V c main_v41 (ix2 r q) := by
    show V c main_v41 (((cfg1.win 0).blk t).view.emb (ix2 p q)) = _
    refine congrArg (V c main_v41) (funext fun a => Fin.ext ?_)
    match a with
    | ⟨0, _⟩ =>
      show win1_0.index t (0 : Fin 2) * 10000 + 1 * p.val = r.val
      omega
    | ⟨1, _⟩ =>
      show win1_0.index t (1 : Fin 2) * 64 + 1 * q.val = q.val
      omega
  have h1 : iblk1 V c 1 t (ix2 p q) = V c main_v28 (ix2 r q) := by
    show V c main_v28 (((cfg1.win 1).blk t).view.emb (ix2 p q)) = _
    refine congrArg (V c main_v28) (funext fun a => Fin.ext ?_)
    match a with
    | ⟨0, _⟩ =>
      show win1_1.index t (0 : Fin 2) * 10000 + 1 * p.val = r.val
      omega
    | ⟨1, _⟩ =>
      show win1_1.index t (1 : Fin 2) * 64 + 1 * q.val = q.val
      omega
  have h2 : iblk1 V c 2 t (ix2 p (0 : Fin 1)) = d (ix1 r) := by
    show V c main_v27 (((cfg1.win 2).blk t).view.emb (ix2 p (0 : Fin 1))) = _
    refine (congrArg (V c main_v27) (funext fun a => Fin.ext ?_)).trans (hd r)
    match a with
    | ⟨0, _⟩ =>
      show win1_2.index t (0 : Fin 2) * 10000 + 1 * p.val = r.val
      omega
    | ⟨1, _⟩ =>
      show win1_2.index t (1 : Fin 2) * 1 + 1 * 0 = 0
      omega
  have h3 : iblk1 V c 3 t (ix2 (0 : Fin 1) q) = b (ix1 q) := by
    show V c main_v42 (((cfg1.win 3).blk t).view.emb (ix2 (0 : Fin 1) q)) = _
    refine (congrArg (V c main_v42) (funext fun a => Fin.ext ?_)).trans (hb q)
    match a with
    | ⟨0, _⟩ =>
      show win1_3.index t (0 : Fin 2) * 1 + 1 * 0 = 0
      omega
    | ⟨1, _⟩ =>
      show win1_3.index t (1 : Fin 2) * 64 + 1 * q.val = q.val
      omega
  exact pre_row_abs (iblk1 V c 0 t) (iblk1 V c 1 t) (iblk1 V c 2 t) (iblk1 V c 3 t)
    (V c main_v41) (V c main_v28) d b p r q h0 h1 h2 h3

/-- What grid point `t` writes back is block `t` of the whole-array function of the arrays as the region finds them. -/
theorem flushed (c : Dev nD) (t : Fin cfg1.N) (d : FVec Ideal ⟨1, ![100000]⟩ .f32) (b : FVec Ideal ⟨1, ![64]⟩ .f32)
    (hd : ∀ r : Fin 100000, V c main_v27 (ix2 r (0 : Fin 1)) = d (ix1 r))
    (hb : ∀ q : Fin 64, V c main_v42 (ix2 (0 : Fin 1) q) = b (ix1 q)) :
    (dat1 (F := Ideal) V c).flushed 4 t
      = ((cfg1.win 4).blk t).view.read (Elt Ideal) (reluRows (V c main_v41) (V c main_v28) d b) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  obtain ⟨r, hr⟩ : ∃ r : Fin 100000, r.val = win1_4.index t (0 : Fin 2) * 10000 + p.val :=
    ⟨⟨win1_4.index t (0 : Fin 2) * 10000 + p.val, by have := p.isLt; omega⟩, rfl⟩
  have he : ((cfg1.win 4).blk t).view.emb (ix2 p q) = ix2 r q := funext fun a => Fin.ext (by
    match a with
    | ⟨0, _⟩ =>
      show win1_4.index t (0 : Fin 2) * 10000 + 1 * p.val = r.val
      omega
    | ⟨1, _⟩ =>
      show win1_4.index t (1 : Fin 2) * 64 + 1 * q.val = q.val
      omega)
  show k1_pay1 (iblk1 V c 0 t) (iblk1 V c 1 t) (iblk1 V c 2 t) (iblk1 V c 3 t) (ix2 p q)
    = reluRows (V c main_v41) (V c main_v28) d b (((cfg1.win 4).blk t).view.emb (ix2 p q))
  rw [he]
  refine (pay (iblk1 V c 0 t) (iblk1 V c 1 t) (iblk1 V c 2 t) (iblk1 V c 3 t) p q).trans ?_
  show _ = max (combine (V c main_v41) (V c main_v28) d b (ix2 r q)) (Ideal.ofBits .f32 0x00000000#32)
  rw [pre_row V c t d b hd hb p r hr q]

/-- An entry of the result array lies in grid point `t`'s block exactly when each coordinate lies in the block's
    range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v43).slice (win1_4.rect t)).set ↔ _
  rw [View.set_slice_whole, Rect.mem_set_unit]
  exact Iff.rfl

/-- Every entry of the result array is in some grid point's block: row `r` is in block `r / 10000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 64 ≤ (i 1).val ∧ (i 1).val < win1_4.index t (1 : Fin 2) * 64 + 64
    omega

/-- The result array after the region: the whole-array function of the arrays as the region found them. -/
theorem arr (c : Dev nD) (d : FVec Ideal ⟨1, ![100000]⟩ .f32) (b : FVec Ideal ⟨1, ![64]⟩ .f32)
    (hd : ∀ r : Fin 100000, V c main_v27 (ix2 r (0 : Fin 1)) = d (ix1 r))
    (hb : ∀ q : Fin 64, V c main_v42 (ix2 (0 : Fin 1) q) = b (ix1 q)) :
    (dat1 (F := Ideal) V c).arrAt 4 cfg1.N = reluRows (V c main_v41) (V c main_v28) d b :=
  (dat1 V c).arrAt_eq_of_cover 4 (reluRows (V c main_v41) (V c main_v28) d b)
    (fun t _ => flushed V c t d b hd hb) cover

end Cert.KernelIdeal.Region1

end
-- ==== Proof.Region2.lean ====
/-
  Region 2: the second layer's projection, the 100000 × 64 first-layer output times the 64 × 40 weights.

  The kernel computes the product in ten blocks of 10000 rows: at grid point `t` it loads rows
  `10000 t … 10000 t + 9999` of the left table and the whole right matrix, multiplies them (the change of float
  format on the way in is the identity over the extended reals, and the accumulator starts at the zero word), and
  writes the block of the result back to the same rows. Row `r` of the product depends on row `r` of the left
  table only, so each written block is the block of the whole product; the ten blocks cover all rows.
-/
import proofs.«130149_j73942156968323_1_alg».proof.Proof.Gen.KernelIdeal.Frame
import proofs.«130149_j73942156968323_1_alg».proof.Proof.Spec
import proofs.«130149_j73942156968323_1_alg».proof.Proof.LibTwoBlocks
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at entry `(p, q)` of the block: the sum over the shared axis of the products of the
    loaded left block's row `p` with the loaded matrix's column `q`. -/
theorem pay (x0 : Vec Ideal S10000x64 .f32) (x1 : Vec Ideal S64x40 .f32) (p : Fin 10000) (q : Fin 40) :
    k2_pay1 (F := Ideal) x0 x1 (ix2 p q) = ∑ c : Fin 64, x0 (ix2 p c) * x1 (ix2 c q) := by
  unfold k2_pay1
  simp only [shapeCast_self]
  exact Cert.Lib.TwoBlocks.plain_matmul_zero_apply dot_S10000x64_S64x40_S10000x40_1_0_0_1_n_n rfl none _ _ p q

/-- The three windows' block positions over the grid: the left table's and the result's blocks move together down
    the rows, the matrix stays whole. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks is some grid point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What grid point `t` writes back is block `t` of the whole product of the two arrays as the region finds them. -/
theorem flushed (c : Dev nD) (t : Fin cfg2.N) :
    (dat2 (F := Ideal) V c).flushed 2 t
      = ((cfg2.win 2).blk t).view.read (Elt Ideal) (matProd (V c main_v43) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x40) hz]
  obtain ⟨e0, e1, e2, e3, e4, e5⟩ := idx_facts t
  funext j
  obtain ⟨p, q, rfl⟩ : ∃ (p : Fin 10000) (q : Fin 40), j = ix2 p q := ⟨j 0, j 1, eq_ix2 j⟩
  show k2_pay1 (iblk2 V c 0 t) (iblk2 V c 1 t) (ix2 p q)
    = matProd (V c main_v43) (V c main_arg4) (((cfg2.win 2).blk t).view.emb (ix2 p q))
  refine (pay (iblk2 V c 0 t) (iblk2 V c 1 t) p q).trans ?_
  unfold matProd
  refine Finset.sum_congr rfl fun k _ => ?_
  have h0 : iblk2 V c 0 t (ix2 p k)
      = V c main_v43 (ix2 ((((cfg2.win 2).blk t).view.emb (ix2 p q)) 0) k) := by
    show V c main_v43 (((cfg2.win 0).blk t).view.emb (ix2 p k)) = _
    refine congrArg (V c main_v43) (funext fun a => Fin.ext ?_)
    match a with
    | ⟨0, _⟩ =>
      show win2_0.index t (0 : Fin 2) * 10000 + 1 * p.val = win2_2.index t (0 : Fin 2) * 10000 + 1 * p.val
      omega
    | ⟨1, _⟩ =>
      show win2_0.index t (1 : Fin 2) * 64 + 1 * k.val = k.val
      omega
  have h1 : iblk2 V c 1 t (ix2 k q)
      = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ =>
      show win2_1.index t (0 : Fin 2) * 64 + 1 * k.val = k.val
      omega
    | ⟨1, _⟩ =>
      show win2_1.index t (1 : Fin 2) * 40 + 1 * q.val = win2_2.index t (1 : Fin 2) * 40 + 1 * q.val
      omega
  exact congrArg₂ (· * ·) h0 h1

/-- An entry of the result array lies in grid point `t`'s block exactly when each coordinate lies in the block's
    range on its axis. -/
theorem mem_blk (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v44).slice (win2_2.rect t)).set ↔ _
  rw [View.set_slice_whole, Rect.mem_set_unit]
  exact Iff.rfl

/-- Every entry of the result array is in some grid point's block: row `r` is in block `r / 10000`. -/
theorem cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 40 ≤ (i 1).val ∧ (i 1).val < win2_2.index t (1 : Fin 2) * 40 + 40
    omega

/-- The result array after the region: the whole product of the two arrays as the region found them. -/
theorem arr (c : Dev nD) :
    (dat2 (F := Ideal) V c).arrAt 2 cfg2.N = matProd (V c main_v43) (V c main_arg4) :=
  (dat2 V c).arrAt_eq_of_cover 2 (matProd (V c main_v43) (V c main_arg4)) (fun t _ => flushed V c t) cover

end Cert.KernelIdeal.Region2

end
-- ==== Proof.LibRowMax.lean ====
/-
  General lemmas about a row-wise maximum over the extended reals.
-/
import Idealize.ShloMosaic.Lib.Pipeline.Value
import Idealize.ShloMosaic.Lib.ValueIdx
import Idealize.ShloMosaic.PureOps.Ideal.Laws

noncomputable section

namespace Cert.Lib.RowMax

open Idealize.ShloMosaic Idealize.ShloMosaic.ValueIdx

/-- A maximum along the lanes of an `n × k` array taken from the word of `-∞` reads, at row `r`, the fold of `max` from
    that word over the row's `k` entries (in any order: `max` commutes and associates). -/
theorem laneMax_apply {n k : ℕ} (src : FVec Ideal ⟨2, ![n, k]⟩ .f32) (h : (⟨2, ![n, k]⟩ : Shape).Reduces [1] ⟨1, ![n]⟩)
    (hφ : FKind.Formats .f32) (hacc : (0xFF800000#32 : BitVec 32) = 0xFF800000#32) (r : Fin n) :
    multiReduction .maximumf [1] ⟨1, ![n]⟩ src 0xFF800000#32 h hφ hacc (ix1 r)
      = (Finset.univ : Finset (Fin k)).fold max (Ideal.ofBits .f32 0xFF800000#32) (fun c => src (ix2 r c)) := by
  refine (Ideal.multiReduction_maximumf_single src 0xFF800000#32 h hφ hacc (ix1 r)).trans ?_
  refine congrArg (fun f => (Finset.univ : Finset (Fin k)).fold max (Ideal.ofBits .f32 0xFF800000#32) f) (funext fun c => ?_)
  exact congrArg src (funext fun ax => Fin.ext (by
    match ax with
    | ⟨0, _⟩ => rfl
    | ⟨1, _⟩ => rfl))

/-- The exponential of a vector read at an entry. -/
theorem exp_apply {s : Shape} {φ : FTy} (x : FVec Ideal s φ) (i : s.Idx) : exp x i = Ideal.exp (x i) := rfl

/-- The host's exponential of a vector read at an entry: the same function. -/
theorem hostExp_apply {s : Shape} {φ : FTy} (x : FVec Ideal s φ) (i : s.Idx) : Host.exp x i = Ideal.exp (x i) := rfl

/-- The word `0xFF800000` is the bottom of the extended reals, so a maximum against it is the other operand. -/
theorem max_negInf (y : EReal) : max (Ideal.ofBits .f32 0xFF800000#32) y = y := by
  have h : Ideal.ofBits .f32 0xFF800000#32 = (⊥ : EReal) := by simp [Ideal.ofBits, Ideal.ieee]
  rw [h, max_eq_right bot_le]

end Cert.Lib.RowMax

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.Region3.lean ====
/-
  Region 3: the second layer's combination and log-softmax.

  The kernel works on ten blocks of 10000 rows. At grid point `t` it loads rows `10000 t … 10000 t + 9999` of the
  neighbour sums, of the projected table and of the column of node scales, and the one row of biases; it forms
  `agg + h * scale + bias` (the scale spread along the row, the bias down the rows), then along each row subtracts the row's maximum and the logarithm of the sum of the exponentials of the shifted entries,
  and writes the block back to the same rows. A row of the result depends on the same row of the operands only, so
  each written block is the block of the whole-array function; the ten blocks cover all rows.
-/
import proofs.«130149_j73942156968323_1_alg».proof.Proof.Gen.KernelIdeal.Frame
import proofs.«130149_j73942156968323_1_alg».proof.Proof.Spec
import proofs.«130149_j73942156968323_1_alg».proof.Proof.LibRowOps
import proofs.«130149_j73942156968323_1_alg».proof.Proof.LibRowMax
import proofs.«130149_j73942156968323_1_alg».proof.Proof.LibGram
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The block of `agg + h * scale + bias`: the loaded column of scales spread along each row, the loaded row of
    biases spread down the rows. -/
def preBlk (x0 x1 : Vec Ideal S10000x40 .f32) (x2 : Vec Ideal S10000x1 .f32) (x3 : Vec Ideal S1x40 .f32) :
    FVec Ideal S10000x40 .f32 :=
  addf (addf x0 (mulf x1 (broadcastTo S10000x40 x2 broadcasts_S10000x1_S10000x40))) (broadcastTo S10000x40 x3 broadcasts_S1x40_S10000x40)

/-- At entry `(p, q)` of the block: the two tables at `(p, q)`, the scale of row `p`, the bias of column `q`. -/
theorem preBlk_apply (x0 x1 : Vec Ideal S10000x40 .f32) (x2 : Vec Ideal S10000x1 .f32) (x3 : Vec Ideal S1x40 .f32)
    (p : Fin 10000) (q : Fin 40) :
    preBlk x0 x1 x2 x3 (ix2 p q) = x0 (ix2 p q) + x1 (ix2 p q) * x2 (ix2 p (0 : Fin 1)) + x3 (ix2 (0 : Fin 1) q) := by
  show x0 (ix2 p q) + x1 (ix2 p q) * broadcastTo S10000x40 x2 broadcasts_S10000x1_S10000x40 (ix2 p q)
      + broadcastTo S10000x40 x3 broadcasts_S1x40_S10000x40 (ix2 p q) = _
  rw [Cert.Lib.RowOps.broadcastTo_a1_ab_apply x2 broadcasts_S10000x1_S10000x40 p q,
    broadcastTo_1b_ab_apply x3 broadcasts_S1x40_S10000x40 p q]

/-- The maximum of each row of a block, kept as a column and spread back along the rows. -/
def bcMax (Y : FVec Ideal S10000x40 .f32) : FVec Ideal S10000x40 .f32 :=
  broadcastTo S10000x40 (shapeCast S10000x1 (multiReduction (F := Ideal) .maximumf [1] S10000 Y 0xFF800000#32
    reduces_S10000x40_S10000 (.inl rfl) rfl) shapeCasts_S10000_S10000x1) broadcasts_S10000x1_S10000x40

/-- The logarithm of each row's sum, kept as a column and spread back along the rows. -/
def bcLogSum (Z : FVec Ideal S10000x40 .f32) : FVec Ideal S10000x40 .f32 :=
  broadcastTo S10000x40 (log (shapeCast S10000x1 (multiReduction (F := Ideal) .add [1] S10000 Z 0x00000000#32
    reduces_S10000x40_S10000 (.inl rfl) rfl) shapeCasts_S10000_S10000x1)) broadcasts_S10000x1_S10000x40

/-- At any entry of row `p` the spread column of maxima reads the maximum of row `p`. -/
theorem bcMax_apply (Y : FVec Ideal S10000x40 .f32) (p : Fin 10000) (c : Fin 40) : bcMax Y (ix2 p c) = rowMax Y p :=
  (Cert.Lib.RowOps.broadcastTo_a1_ab_apply _ broadcasts_S10000x1_S10000x40 p c).trans
    ((Cert.Lib.Gram.shapeCast_a_a1_apply _ shapeCasts_S10000_S10000x1 p (0 : Fin 1)).trans
      (Cert.Lib.RowMax.laneMax_apply Y reduces_S10000x40_S10000 (.inl rfl) rfl p))

/-- At any entry of row `p` the spread column of log-sums reads the logarithm of the sum of row `p`. -/
theorem bcLogSum_apply (Z : FVec Ideal S10000x40 .f32) (p : Fin 10000) (c : Fin 40) :
    bcLogSum Z (ix2 p c) = Ideal.log (∑ k : Fin 40, Z (ix2 p k)) :=
  (Cert.Lib.RowOps.broadcastTo_a1_ab_apply _ broadcasts_S10000x1_S10000x40 p c).trans
    (congrArg Ideal.log ((Cert.Lib.Gram.shapeCast_a_a1_apply _ shapeCasts_S10000_S10000x1 p (0 : Fin 1)).trans
      (Cert.Lib.RowOps.laneSum_apply Z reduces_S10000x40_S10000 (.inl rfl) rfl p)))

/-- The body's stored value: the block of `agg + h * scale + bias`, shifted by its row maxima, minus the logarithm
    of the row sums of the exponentials of the shifted block. -/
theorem pay_struct (x0 x1 : Vec Ideal S10000x40 .f32) (x2 : Vec Ideal S10000x1 .f32) (x3 : Vec Ideal S1x40 .f32) :
    k3_pay1 (F := Ideal) x0 x1 x2 x3
      = subf (subf (preBlk x0 x1 x2 x3) (bcMax (preBlk x0 x1 x2 x3)))
          (bcLogSum (exp (subf (preBlk x0 x1 x2 x3) (bcMax (preBlk x0 x1 x2 x3))))) := by
  unfold k3_pay1 preBlk bcMax bcLogSum
  simp only [shapeCast_self]

/-- That value at entry `(p, q)` is the log-softmax of the block along row `p`. -/
theorem softmax_apply (Y : FVec Ideal S10000x40 .f32) (p : Fin 10000) (q : Fin 40) :
    subf (subf Y (bcMax Y)) (bcLogSum (exp (subf Y (bcMax Y)))) (ix2 p q) = logSoftmaxRows Y (ix2 p q) := by
  show (Y (ix2 p q) - bcMax Y (ix2 p q)) - bcLogSum (exp (subf Y (bcMax Y))) (ix2 p q) = _
  rw [bcMax_apply, bcLogSum_apply]
  show _ = (Y (ix2 p q) - rowMax Y p) - Ideal.log (∑ c : Fin 40, Ideal.exp (Y (ix2 p c) - rowMax Y p))
  refine congrArg (fun s => (Y (ix2 p q) - rowMax Y p) - Ideal.log s) (Finset.sum_congr rfl fun k _ => ?_)
  show Ideal.exp (Y (ix2 p k) - bcMax Y (ix2 p k)) = _
  rw [bcMax_apply]

theorem pay (x0 x1 : Vec Ideal S10000x40 .f32) (x2 : Vec Ideal S10000x1 .f32) (x3 : Vec Ideal S1x40 .f32)
    (p : Fin 10000) (q : Fin 40) :
    k3_pay1 (F := Ideal) x0 x1 x2 x3 (ix2 p q) = logSoftmaxRows (preBlk x0 x1 x2 x3) (ix2 p q) := by
  rw [pay_struct]
  exact softmax_apply _ p q

/-- Row `p` of a block of `agg + h * scale + bias` is row `r` of the whole-array `combine` as soon as the four loaded
    blocks read, along that row, what the whole arrays hold along row `r`. -/
theorem pre_row_abs (y0 y1 : Vec Ideal S10000x40 .f32) (y2 : Vec Ideal S10000x1 .f32) (y3 : Vec Ideal S1x40 .f32)
    (A H : FVec Ideal ⟨2, ![100000, 40]⟩ .f32) (d : FVec Ideal ⟨1, ![100000]⟩ .f32) (b : FVec Ideal ⟨1, ![40]⟩ .f32)
    (p : Fin 10000) (r : Fin 100000) (q : Fin 40)
    (h0 : y0 (ix2 p q) = A (ix2 r q)) (h1 : y1 (ix2 p q) = H (ix2 r q))
    (h2 : y2 (ix2 p (0 : Fin 1)) = d (ix1 r)) (h3 : y3 (ix2 (0 : Fin 1) q) = b (ix1 q)) :
    preBlk y0 y1 y2 y3 (ix2 p q) = combine A H d b (ix2 r q) := by
  rw [preBlk_apply, h0, h1, h2, h3]
  rfl

/-- The five windows' block positions over the grid: the three row-blocked operands and the result move together
    down the rows, the bias row stays whole. -/
theorem idx_facts : ∀ t : Fin cfg3.N, win3_0.index t (0 : Fin 2) = win3_4.index t (0 : Fin 2)
    ∧ win3_0.index t (1 : Fin 2) = 0 ∧ win3_1.index t (0 : Fin 2) = win3_4.index t (0 : Fin 2)
    ∧ win3_1.index t (1 : Fin 2) = 0 ∧ win3_2.index t (0 : Fin 2) = win3_4.index t (0 : Fin 2)
    ∧ win3_2.index t (1 : Fin 2) = 0 ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every one of the ten row blocks is some grid point's. -/
theorem idx_onto : ∀ q0 : Fin 10, ∃ t : Fin cfg3.N, win3_4.index t = ![q0.val, 0] :=
  (by decide +kernel : ∀ q0 : Fin 10, ∃ t : Fin grid3.N, win3_4.index t = ![q0.val, 0])

variable (V : (c : Dev nD) → (b : Ref sig .tc) → Buf (Elt Ideal) ((c : Thread nD τ).loc b))

/-- Row `p` of grid point `t`'s block of `agg + h * scale + bias` is row `r = 10000 t + p` of the whole-array
    `combine`, when the scale column holds the vector `d` and the bias row the vector `b`. -/
theorem pre_row (c : Dev nD) (t : Fin cfg3.N) (d : FVec Ideal ⟨1, ![100000]⟩ .f32) (b : FVec Ideal ⟨1, ![40]⟩ .f32)
    (hd : ∀ r : Fin 100000, V c main_v27 (ix2 r (0 : Fin 1)) = d (ix1 r))
    (hb : ∀ q : Fin 40, V c main_v58 (ix2 (0 : Fin 1) q) = b (ix1 q))
    (p : Fin 10000) (r : Fin 100000) (hr : r.val = win3_4.index t (0 : Fin 2) * 10000 + p.val) (q : Fin 40) :
    preBlk (iblk3 V c 0 t) (iblk3 V c 1 t) (iblk3 V c 2 t) (iblk3 V c 3 t) (ix2 p q)
      = combine (V c main_v57) (V c main_v44) d b (ix2 r q) := by
  obtain ⟨e0, e1, e2, e3, e4, e5, e6, e7, e8, e9⟩ := idx_facts t
  have h0 : iblk3 V c 0 t (ix2 p q) = V c main_v57 (ix2 r q) := by
    show V c main_v57 (((cfg3.win 0).blk t).view.emb (ix2 p q)) = _
    refine congrArg (V c main_v57) (funext fun a => Fin.ext ?_)
    match a with
    | ⟨0, _⟩ =>
      show win3_0.index t (0 : Fin 2) * 10000 + 1 * p.val = r.val
      omega
    | ⟨1, _⟩ =>
      show win3_0.index t (1 : Fin 2) * 40 + 1 * q.val = q.val
      omega
  have h1 : iblk3 V c 1 t (ix2 p q) = V c main_v44 (ix2 r q) := by
    show V c main_v44 (((cfg3.win 1).blk t).view.emb (ix2 p q)) = _
    refine congrArg (V c main_v44) (funext fun a => Fin.ext ?_)
    match a with
    | ⟨0, _⟩ =>
      show win3_1.index t (0 : Fin 2) * 10000 + 1 * p.val = r.val
      omega
    | ⟨1, _⟩ =>
      show win3_1.index t (1 : Fin 2) * 40 + 1 * q.val = q.val
      omega
  have h2 : iblk3 V c 2 t (ix2 p (0 : Fin 1)) = d (ix1 r) := by
    show V c main_v27 (((cfg3.win 2).blk t).view.emb (ix2 p (0 : Fin 1))) = _
    refine (congrArg (V c main_v27) (funext fun a => Fin.ext ?_)).trans (hd r)
    match a with
    | ⟨0, _⟩ =>
      show win3_2.index t (0 : Fin 2) * 10000 + 1 * p.val = r.val
      omega
    | ⟨1, _⟩ =>
      show win3_2.index t (1 : Fin 2) * 1 + 1 * 0 = 0
      omega
  have h3 : iblk3 V c 3 t (ix2 (0 : Fin 1) q) = b (ix1 q) := by
    show V c main_v58 (((cfg3.win 3).blk t).view.emb (ix2 (0 : Fin 1) q)) = _
    refine (congrArg (V c main_v58) (funext fun a => Fin.ext ?_)).trans (hb q)
    match a with
    | ⟨0, _⟩ =>
      show win3_3.index t (0 : Fin 2) * 1 + 1 * 0 = 0
      omega
    | ⟨1, _⟩ =>
      show win3_3.index t (1 : Fin 2) * 40 + 1 * q.val = q.val
      omega
  exact pre_row_abs (iblk3 V c 0 t) (iblk3 V c 1 t) (iblk3 V c 2 t) (iblk3 V c 3 t)
    (V c main_v57) (V c main_v44) d b p r q h0 h1 h2 h3

/-- What grid point `t` writes back is block `t` of the whole-array function of the arrays as the region finds them. -/
theorem flushed (c : Dev nD) (t : Fin cfg3.N) (d : FVec Ideal ⟨1, ![100000]⟩ .f32) (b : FVec Ideal ⟨1, ![40]⟩ .f32)
    (hd : ∀ r : Fin 100000, V c main_v27 (ix2 r (0 : Fin 1)) = d (ix1 r))
    (hb : ∀ q : Fin 40, V c main_v58 (ix2 (0 : Fin 1) q) = b (ix1 q)) :
    (dat3 (F := Ideal) V c).flushed 4 t
      = ((cfg3.win 4).blk t).view.read (Elt Ideal) (logSoftmaxLayer (V c main_v57) (V c main_v44) d b) := by
  show (cfg3.win 4).cut (grid3.coords t) ((dat3 V c).after 4 t) = _
  rw [after3_4]
  unfold out3_4
  rw [View.canon_unit_zero hz]
  simp only [View.ld_unit_zero (S := S10000x40) hz, View.ld_unit_zero (S := S10000x1) hz, View.ld_unit_zero (S := S1x40) hz]
  obtain ⟨e0, e1, e2, e3, e4, e5, e6, e7, e8, e9⟩ := idx_facts t
  funext j
  obtain ⟨p, q, rfl⟩ : ∃ (p : Fin 10000) (q : Fin 40), j = ix2 p q := ⟨j 0, j 1, eq_ix2 j⟩
  obtain ⟨r, hr⟩ : ∃ r : Fin 100000, r.val = win3_4.index t (0 : Fin 2) * 10000 + p.val :=
    ⟨⟨win3_4.index t (0 : Fin 2) * 10000 + p.val, by have := p.isLt; omega⟩, rfl⟩
  have he : ((cfg3.win 4).blk t).view.emb (ix2 p q) = ix2 r q := funext fun a => Fin.ext (by
    match a with
    | ⟨0, _⟩ =>
      show win3_4.index t (0 : Fin 2) * 10000 + 1 * p.val = r.val
      omega
    | ⟨1, _⟩ =>
      show win3_4.index t (1 : Fin 2) * 40 + 1 * q.val = q.val
      omega)
  show k3_pay1 (iblk3 V c 0 t) (iblk3 V c 1 t) (iblk3 V c 2 t) (iblk3 V c 3 t) (ix2 p q)
    = logSoftmaxLayer (V c main_v57) (V c main_v44) d b (((cfg3.win 4).blk t).view.emb (ix2 p q))
  rw [he]
  refine (pay (iblk3 V c 0 t) (iblk3 V c 1 t) (iblk3 V c 2 t) (iblk3 V c 3 t) p q).trans ?_
  exact logSoftmaxRows_congr_row _ (combine (V c main_v57) (V c main_v44) d b) p r
    (fun k => pre_row V c t d b hd hb p r hr k) q

/-- An entry of the result array lies in grid point `t`'s block exactly when each coordinate lies in the block's
    range on its axis. -/
theorem mem_blk (t : Fin cfg3.N) (i : S100000x40.Idx) :
    i ∈ ((cfg3.win 4).blk t).view.set ↔ ∀ a : Fin 2, win3_4.index t a * S10000x40.size a ≤ (i a).val
      ∧ (i a).val < win3_4.index t a * S10000x40.size a + S10000x40.size a := by
  show i ∈ ((View.whole main_v59).slice (win3_4.rect t)).set ↔ _
  rw [View.set_slice_whole, Rect.mem_set_unit]
  exact Iff.rfl

/-- Every entry of the result array is in some grid point's block: row `r` is in block `r / 10000`. -/
theorem cover (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  obtain ⟨t, ht⟩ := idx_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 10000 ≤ (i 0).val ∧ (i 0).val < win3_4.index t (0 : Fin 2) * 10000 + 10000
    omega
  | ⟨1, _⟩ =>
    show win3_4.index t (1 : Fin 2) * 40 ≤ (i 1).val ∧ (i 1).val < win3_4.index t (1 : Fin 2) * 40 + 40
    omega

/-- The result array after the region: the whole-array function of the arrays as the region found them. -/
theorem arr (c : Dev nD) (d : FVec Ideal ⟨1, ![100000]⟩ .f32) (b : FVec Ideal ⟨1, ![40]⟩ .f32)
    (hd : ∀ r : Fin 100000, V c main_v27 (ix2 r (0 : Fin 1)) = d (ix1 r))
    (hb : ∀ q : Fin 40, V c main_v58 (ix2 (0 : Fin 1) q) = b (ix1 q)) :
    (dat3 (F := Ideal) V c).arrAt 4 cfg3.N = logSoftmaxLayer (V c main_v57) (V c main_v44) d b :=
  (dat3 V c).arrAt_eq_of_cover 4 (logSoftmaxLayer (V c main_v57) (V c main_v44) d b)
    (fun t _ => flushed V c t d b hd hb) cover

end Cert.KernelIdeal.Region3

end
-- ==== Proof.KernelValue.lean ====
/-
  The kernel program's result as the network function of its arguments.

  The generated frame names the buffers' contents at every boundary between a stretch of host operations and a
  kernel region: the launch memory, then alternately "after the stretch" and "the region's arrays at what its
  write-backs leave, every other buffer as entered". This module walks that chain: each stretch is read by the
  stretch lemmas, each region's result array by the region's whole-array lemma, and a buffer a step does not
  write is carried across it unchanged. The last boundary's entry for the result array comes out as the model's
  network function of the six argument arrays.
-/
import proofs.«130149_j73942156968323_1_alg».proof.Proof.Gen.KernelIdeal.Frame
import proofs.«130149_j73942156968323_1_alg».proof.Proof.Model
import proofs.«130149_j73942156968323_1_alg».proof.Proof.KernelHost
import proofs.«130149_j73942156968323_1_alg».proof.Proof.Region0
import proofs.«130149_j73942156968323_1_alg».proof.Proof.Region1
import proofs.«130149_j73942156968323_1_alg».proof.Proof.Region2
import proofs.«130149_j73942156968323_1_alg».proof.Proof.Region3
import proofs.«130149_j73942156968323_1_alg».proof.Proof.LibGram
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.KernelIdeal.HostStretches Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The edge array as launched. -/
abbrev E : IVec ⟨2, ![2, 1600000]⟩ 32 := m ((c : Thread nD τ).loc main_arg1)
abbrev X0 : FVec Ideal ⟨2, ![100000, 128]⟩ .f32 := m ((c : Thread nD τ).loc main_arg0)
abbrev Wt1 : FVec Ideal ⟨2, ![128, 64]⟩ .f32 := m ((c : Thread nD τ).loc main_arg2)
abbrev Bs1 : FVec Ideal ⟨1, ![64]⟩ .f32 := m ((c : Thread nD τ).loc main_arg3)
abbrev Wt2 : FVec Ideal ⟨2, ![64, 40]⟩ .f32 := m ((c : Thread nD τ).loc main_arg4)
abbrev Bs2 : FVec Ideal ⟨1, ![40]⟩ .f32 := m ((c : Thread nD τ).loc main_arg5)
/-- The squared inverse square-root degrees. -/
abbrev DD : FVec Ideal ⟨1, ![100000]⟩ .f32 := mulf (dinvOf (dstOf (E m c))) (dinvOf (dstOf (E m c)))
/-- The edge weights. -/
abbrev NORM : FVec Ideal ⟨1, ![1600000]⟩ .f32 := normOf (srcOf (E m c)) (dstOf (E m c)) (dinvOf (dstOf (E m c)))

/-! ## After the first stretch -/

theorem W1_v1 : W1 m ρ c (Proc.devRef .tc main_v1) = srcOf (E m c) := h0_v1 (W0 m ρ c)
theorem W1_v3 : W1 m ρ c (Proc.devRef .tc main_v3) = dstOf (E m c) := h0_v3 (W0 m ρ c)
theorem W1_v25 : W1 m ρ c (Proc.devRef .tc main_v25) = NORM m c := h0_v25 (W0 m ρ c)
theorem W1_v27 : W1 m ρ c (Proc.devRef .tc main_v27) = shapeCast S100000x1 (DD m c) shapeCasts_S100000_S100000x1 := h0_v27 (W0 m ρ c)
theorem W1_arg0 : W1 m ρ c (Proc.devRef .tc main_arg0) = X0 m c := h0_arg0 (W0 m ρ c)
theorem W1_arg2 : W1 m ρ c (Proc.devRef .tc main_arg2) = Wt1 m c := h0_arg2 (W0 m ρ c)
theorem W1_arg3 : W1 m ρ c (Proc.devRef .tc main_arg3) = Bs1 m c := h0_arg3 (W0 m ρ c)
theorem W1_arg4 : W1 m ρ c (Proc.devRef .tc main_arg4) = Wt2 m c := h0_arg4 (W0 m ρ c)
theorem W1_arg5 : W1 m ρ c (Proc.devRef .tc main_arg5) = Bs2 m c := h0_arg5 (W0 m ρ c)

/-! ## After the first region: the first projection -/

theorem W2_v28 : W2 m ρ c (Proc.devRef .tc main_v28) = matProd (X0 m c) (Wt1 m c) := by
  refine (W2_arr m ρ c 2).trans ((Region0.arr (V1 m ρ) c).trans ?_)
  show matProd (W1 m ρ c (Proc.devRef .tc main_arg0)) (W1 m ρ c (Proc.devRef .tc main_arg2)) = _
  rw [W1_arg0, W1_arg2]
theorem W2_v1 : W2 m ρ c (Proc.devRef .tc main_v1) = srcOf (E m c) := (W2_of_ne m ρ c main_v1 (by decide)).trans (W1_v1 m ρ c)
theorem W2_v3 : W2 m ρ c (Proc.devRef .tc main_v3) = dstOf (E m c) := (W2_of_ne m ρ c main_v3 (by decide)).trans (W1_v3 m ρ c)
theorem W2_v25 : W2 m ρ c (Proc.devRef .tc main_v25) = NORM m c := (W2_of_ne m ρ c main_v25 (by decide)).trans (W1_v25 m ρ c)
theorem W2_v27 : W2 m ρ c (Proc.devRef .tc main_v27) = shapeCast S100000x1 (DD m c) shapeCasts_S100000_S100000x1 :=
  (W2_of_ne m ρ c main_v27 (by decide)).trans (W1_v27 m ρ c)
theorem W2_arg3 : W2 m ρ c (Proc.devRef .tc main_arg3) = Bs1 m c := (W2_of_ne m ρ c main_arg3 (by decide)).trans (W1_arg3 m ρ c)
theorem W2_arg4 : W2 m ρ c (Proc.devRef .tc main_arg4) = Wt2 m c := (W2_of_ne m ρ c main_arg4 (by decide)).trans (W1_arg4 m ρ c)
theorem W2_arg5 : W2 m ρ c (Proc.devRef .tc main_arg5) = Bs2 m c := (W2_of_ne m ρ c main_arg5 (by decide)).trans (W1_arg5 m ρ c)

/-! ## After the second stretch -/

theorem W3_v41 : W3 m ρ c (Proc.devRef .tc main_v41)
    = agg64 (matProd (X0 m c) (Wt1 m c)) (srcOf (E m c)) (dstOf (E m c)) (NORM m c) := by
  refine (h1_v41 (W2 m ρ c)).trans ?_
  rw [W2_v28, W2_v1, W2_v3, W2_v25]
theorem W3_v42 : W3 m ρ c (Proc.devRef .tc main_v42) = shapeCast S1x64 (Bs1 m c) shapeCasts_S64_S1x64 := by
  refine (h1_v42 (W2 m ρ c)).trans ?_
  rw [W2_arg3]
theorem W3_v28 : W3 m ρ c (Proc.devRef .tc main_v28) = matProd (X0 m c) (Wt1 m c) := (h1_v28 (W2 m ρ c)).trans (W2_v28 m ρ c)
theorem W3_v27 : W3 m ρ c (Proc.devRef .tc main_v27) = shapeCast S100000x1 (DD m c) shapeCasts_S100000_S100000x1 :=
  (h1_v27 (W2 m ρ c)).trans (W2_v27 m ρ c)
theorem W3_v1 : W3 m ρ c (Proc.devRef .tc main_v1) = srcOf (E m c) := (h1_v1 (W2 m ρ c)).trans (W2_v1 m ρ c)
theorem W3_v3 : W3 m ρ c (Proc.devRef .tc main_v3) = dstOf (E m c) := (h1_v3 (W2 m ρ c)).trans (W2_v3 m ρ c)
theorem W3_v25 : W3 m ρ c (Proc.devRef .tc main_v25) = NORM m c := (h1_v25 (W2 m ρ c)).trans (W2_v25 m ρ c)
theorem W3_arg4 : W3 m ρ c (Proc.devRef .tc main_arg4) = Wt2 m c := (h1_arg4 (W2 m ρ c)).trans (W2_arg4 m ρ c)
theorem W3_arg5 : W3 m ρ c (Proc.devRef .tc main_arg5) = Bs2 m c := (h1_arg5 (W2 m ρ c)).trans (W2_arg5 m ρ c)

/-! ## After the second region: the first layer's output -/

/-- The column of node scales the combining regions read holds, at row `r`, the squared inverse square-root
    degree of node `r`. -/
theorem col_apply (r : Fin 100000) :
    shapeCast S100000x1 (DD m c) shapeCasts_S100000_S100000x1 (ix2 r (0 : Fin 1)) = DD m c (ix1 r) :=
  Cert.Lib.Gram.shapeCast_a_a1_apply (DD m c) shapeCasts_S100000_S100000x1 r (0 : Fin 1)

theorem W4_v43 : W4 m ρ c (Proc.devRef .tc main_v43) = layer1 (X0 m c) (E m c) (Wt1 m c) (Bs1 m c) := by
  refine (W4_arr m ρ c 4).trans ((Region1.arr (V3 m ρ) c (DD m c) (Bs1 m c) (fun r => ?_) (fun q => ?_)).trans ?_)
  · show W3 m ρ c (Proc.devRef .tc main_v27) (ix2 r (0 : Fin 1)) = _
    rw [W3_v27]
    exact col_apply m c r
  · show W3 m ρ c (Proc.devRef .tc main_v42) (ix2 (0 : Fin 1) q) = _
    rw [W3_v42]
    exact shapeCast_a_1a_apply (Bs1 m c) shapeCasts_S64_S1x64 (0 : Fin 1) q
  · show reluRows (W3 m ρ c (Proc.devRef .tc main_v41)) (W3 m ρ c (Proc.devRef .tc main_v28)) (DD m c) (Bs1 m c) = _
    rw [W3_v41, W3_v28]
    rfl
theorem W4_v1 : W4 m ρ c (Proc.devRef .tc main_v1) = srcOf (E m c) := (W4_of_ne m ρ c main_v1 (by decide)).trans (W3_v1 m ρ c)
theorem W4_v3 : W4 m ρ c (Proc.devRef .tc main_v3) = dstOf (E m c) := (W4_of_ne m ρ c main_v3 (by decide)).trans (W3_v3 m ρ c)
theorem W4_v25 : W4 m ρ c (Proc.devRef .tc main_v25) = NORM m c := (W4_of_ne m ρ c main_v25 (by decide)).trans (W3_v25 m ρ c)
theorem W4_arg4 : W4 m ρ c (Proc.devRef .tc main_arg4) = Wt2 m c := (W4_of_ne m ρ c main_arg4 (by decide)).trans (W3_arg4 m ρ c)
theorem W4_arg5 : W4 m ρ c (Proc.devRef .tc main_arg5) = Bs2 m c := (W4_of_ne m ρ c main_arg5 (by decide)).trans (W3_arg5 m ρ c)
/-- The column of node scales is an input of the second region: it reads it and leaves it in place. -/
theorem W4_v27 : W4 m ρ c (Proc.devRef .tc main_v27) = shapeCast S100000x1 (DD m c) shapeCasts_S100000_S100000x1 :=
  ((W4_arr m ρ c 2).trans (((dat1 (V3 m ρ) c).arrAt_in 2 rfl _).trans (A_eq1 (V3 m ρ) c 2))).trans (W3_v27 m ρ c)

/-! ## After the third region: the second projection -/

theorem W5_v44 : W5 m ρ c (Proc.devRef .tc main_v44) = matProd (layer1 (X0 m c) (E m c) (Wt1 m c) (Bs1 m c)) (Wt2 m c) := by
  refine (W5_arr m ρ c 2).trans ((Region2.arr (V4 m ρ) c).trans ?_)
  show matProd (W4 m ρ c (Proc.devRef .tc main_v43)) (W4 m ρ c (Proc.devRef .tc main_arg4)) = _
  rw [W4_v43, W4_arg4]
theorem W5_v1 : W5 m ρ c (Proc.devRef .tc main_v1) = srcOf (E m c) := (W5_of_ne m ρ c main_v1 (by decide)).trans (W4_v1 m ρ c)
theorem W5_v3 : W5 m ρ c (Proc.devRef .tc main_v3) = dstOf (E m c) := (W5_of_ne m ρ c main_v3 (by decide)).trans (W4_v3 m ρ c)
theorem W5_v25 : W5 m ρ c (Proc.devRef .tc main_v25) = NORM m c := (W5_of_ne m ρ c main_v25 (by decide)).trans (W4_v25 m ρ c)
theorem W5_v27 : W5 m ρ c (Proc.devRef .tc main_v27) = shapeCast S100000x1 (DD m c) shapeCasts_S100000_S100000x1 :=
  (W5_of_ne m ρ c main_v27 (by decide)).trans (W4_v27 m ρ c)
theorem W5_arg5 : W5 m ρ c (Proc.devRef .tc main_arg5) = Bs2 m c := (W5_of_ne m ρ c main_arg5 (by decide)).trans (W4_arg5 m ρ c)

/-! ## After the third stretch -/

theorem W6_v57 : W6 m ρ c (Proc.devRef .tc main_v57)
    = agg40 (matProd (layer1 (X0 m c) (E m c) (Wt1 m c) (Bs1 m c)) (Wt2 m c)) (srcOf (E m c)) (dstOf (E m c)) (NORM m c) := by
  refine (h3_v57 (W5 m ρ c)).trans ?_
  rw [W5_v44, W5_v1, W5_v3, W5_v25]
theorem W6_v58 : W6 m ρ c (Proc.devRef .tc main_v58) = shapeCast S1x40 (Bs2 m c) shapeCasts_S40_S1x40 := by
  refine (h3_v58 (W5 m ρ c)).trans ?_
  rw [W5_arg5]
theorem W6_v44 : W6 m ρ c (Proc.devRef .tc main_v44) = matProd (layer1 (X0 m c) (E m c) (Wt1 m c) (Bs1 m c)) (Wt2 m c) :=
  (h3_v44 (W5 m ρ c)).trans (W5_v44 m ρ c)
theorem W6_v27 : W6 m ρ c (Proc.devRef .tc main_v27) = shapeCast S100000x1 (DD m c) shapeCasts_S100000_S100000x1 :=
  (h3_v27 (W5 m ρ c)).trans (W5_v27 m ρ c)

/-! ## After the fourth region: the result -/

/-- The result array after the run is the network function of the six argument arrays. -/
theorem W7_v59 : W7 m ρ c (Proc.devRef .tc main_v59)
    = gcnOut (X0 m c) (E m c) (Wt1 m c) (Bs1 m c) (Wt2 m c) (Bs2 m c) := by
  refine (W7_arr m ρ c 4).trans ((Region3.arr (V6 m ρ) c (DD m c) (Bs2 m c) (fun r => ?_) (fun q => ?_)).trans ?_)
  · show W6 m ρ c (Proc.devRef .tc main_v27) (ix2 r (0 : Fin 1)) = _
    rw [W6_v27]
    exact col_apply m c r
  · show W6 m ρ c (Proc.devRef .tc main_v58) (ix2 (0 : Fin 1) q) = _
    rw [W6_v58]
    exact shapeCast_a_1a_apply (Bs2 m c) shapeCasts_S40_S1x40 (0 : Fin 1) q
  · show logSoftmaxLayer (W6 m ρ c (Proc.devRef .tc main_v57)) (W6 m ρ c (Proc.devRef .tc main_v44)) (DD m c) (Bs2 m c) = _
    rw [W6_v57, W6_v44]
    rfl

end Cert.KernelIdeal.KernelValue

end
-- ==== Proof.LibHostForms.lean ====
/-
  Readings, at an entry, of host operations that spread a vector over a matrix or multiply two matrices, for any
  sizes.

  * A length-`a` vector laid out as an `a × 1` column (a broadcast along a new unit axis) and then spread over `b`
    columns reads, at `(p, q)`, the vector at `p`.
  * A length-`b` vector laid out as a `1 × b` row and then spread over `a` rows reads, at `(p, q)`, the vector at `q`.
  * The two steps of the first one at a time; the host's logarithm at an entry; the zero word added to a sum.
  * A scalar spread over any shape reads the scalar at every entry.
  * The host's matrix product of an `M × K` table with a `K × N` matrix, for any dimension numbers that contract the
    left columns with the right rows and batch nothing, reads at `(p, q)` the sum over `c` of
    `A (p, c) * B (c, q)` over the extended reals.
-/
import Idealize.ShloMosaic.Lib.Pipeline.Value
import Idealize.ShloMosaic.Lib.ValueIdx
import Idealize.ShloMosaic.PureOps.Ideal.Laws

noncomputable section

open scoped BigOperators

namespace Cert.Lib.HostForms

open Idealize.ShloMosaic Idealize.ShloMosaic.ValueIdx

variable {α : Type}

/-- A vector kept as a column and spread along the rows reads, at `(p, q)`, the vector at `p`. -/
theorem bcast_col_chain_apply {a b : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![a, 1]⟩ ![0] h1 d) (ix2 p q) = d (ix1 p) := by
  refine (broadcastInDim_apply ![0, 1] h2 _ (ix2 p q) (ix2 p (0 : Fin 1)) fun ax => ?_).trans
    (broadcastInDim_apply ![0] h1 d (ix2 p (0 : Fin 1)) (ix1 p) fun ax => ?_)
  · match ax with
    | ⟨0, _⟩ =>
      show p.val = if a = 1 then 0 else p.val
      split
      · have := p.isLt; omega
      · rfl
    | ⟨1, _⟩ =>
      show (0 : ℕ) = if (1 : ℕ) = 1 then 0 else q.val
      rw [if_pos rfl]
  · match ax with
    | ⟨0, _⟩ =>
      show p.val = if a = 1 then 0 else p.val
      split
      · have := p.isLt; omega
      · rfl

/-- A vector kept as a row and spread down the rows reads, at `(p, q)`, the vector at `q`. -/
theorem bcast_row_chain_apply {a b : ℕ} (v : (⟨1, ![b]⟩ : Shape).Idx → α)
    (h1 : (⟨1, ![b]⟩ : Shape).BroadcastsInDim ⟨2, ![1, b]⟩ (![1] : Fin 1 → Fin (⟨2, ![1, b]⟩ : Shape).rank))
    (h2 : (⟨2, ![1, b]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ =>
      show (0 : ℕ) = if (1 : ℕ) = 1 then 0 else p.val
      rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- An `a × 1` column spread over `b` columns reads, at `(p, q)`, the column's entry of row `p`. -/
theorem bcast_col_spread_apply {a b : ℕ} (v : (⟨2, ![a, 1]⟩ : Shape).Idx → α)
    (h2 : (⟨2, ![a, 1]⟩ : Shape).BroadcastsInDim ⟨2, ![a, b]⟩ (![0, 1] : Fin 2 → Fin (⟨2, ![a, b]⟩ : Shape).rank))
    (p : Fin a) (q : Fin b) :
    broadcastInDim ⟨2, ![a, b]⟩ ![0, 1] h2 v (ix2 p q) = v (ix2 p (0 : Fin 1)) := by
  refine broadcastInDim_apply ![0, 1] h2 v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A length-`a` vector kept as an `a × 1` column reads, at `(p, u)`, the vector at `p`. -/
theorem bcast_vec_col_apply {a : ℕ} (d : (⟨1, ![a]⟩ : Shape).Idx → α)
    (h1 : (⟨1, ![a]⟩ : Shape).BroadcastsInDim ⟨2, ![a, 1]⟩ (![0] : Fin 1 → Fin (⟨2, ![a, 1]⟩ : Shape).rank))
    (p : Fin a) (u : Fin 1) :
    broadcastInDim ⟨2, ![a, 1]⟩ ![0] h1 d (ix2 p u) = d (ix1 p) := by
  refine broadcastInDim_apply ![0] h1 d (ix2 p u) (ix1 p) fun ax => ?_
  match ax with
  | ⟨0, _⟩ =>
    show p.val = if a = 1 then 0 else p.val
    split
    · have := p.isLt; omega
    · rfl

/-- The host's logarithm of a vector read at an entry. -/
theorem hostLog_apply {s : Shape} {φ : FTy} (x : FVec Ideal s φ) (i : s.Idx) : Host.log x i = Ideal.log (x i) := rfl

/-- The zero word in front of a sum adds nothing. -/
theorem zero_word_add (v : FVec Ideal ⟨0, ![]⟩ .f32) (hv : v = constant (F := Ideal) ⟨0, ![]⟩ .f32 0x00000000#32)
    (j : (⟨0, ![]⟩ : Shape).Idx) (s : EReal) : v j + s = s := by
  subst hv
  show Ideal.ofBits .f32 0x00000000#32 + s = s
  rw [Ideal.ofBits_zero_f32, zero_add]

/-- A scalar spread over any shape reads, at every entry, the scalar. -/
theorem bcast_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- The host's product of an `M × K` table with a `K × N` matrix reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  show FloatOps.dotGeneral (DotDims.plain M K N) prec .single A B (ix2 p q) = _
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

end Cert.Lib.HostForms

end
-- ==== Proof.LibHostRowMax.lean ====
/-
  The host's maximum along the lanes of a matrix, read at a row, for any sizes.

  A one-operand reduce whose body is the maximum, taken along the second axis of an `n × k` array from an initial
  scalar, gives one number per row: at row `r` it is the fold of `max` from the initial value over that row's `k`
  entries (in any order: `max` commutes and associates on the extended reals).
-/
import Idealize.ShloMosaic.Lib.Pipeline.Value
import Idealize.ShloMosaic.Lib.ValueIdx
import Idealize.ShloMosaic.PureOps.Ideal.Laws

noncomputable section

namespace Cert.Lib.HostRowMax

open Idealize.ShloMosaic Idealize.ShloMosaic.ValueIdx

/-- The host's max-reduce along the lanes of an `n × k` array from the scalar `init` reads, at row `r`, the fold of
    `max` from `init`'s one entry over the row's entries. -/
theorem hostLaneMax_apply {n k : ℕ} {u : Shape} (x : FVec Ideal ⟨2, ![n, k]⟩ .f32) (init : FVec Ideal u .f32)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce FloatOps.maximumf x init h' hu (ix1 r)
      = (Finset.univ : Finset (Fin k)).fold max (init (Shape.Idx.first hu)) (fun c => x (ix2 r c)) := by
  rw [Host.reduce_eq_fold_single FloatOps.maximumf x init h' h hu]
  refine congrArg (fun f => (Finset.univ : Finset (Fin k)).fold max (init (Shape.Idx.first hu)) f) (funext fun c => ?_)
  exact congrArg x (funext fun ax => Fin.ext (by
    match ax with
    | ⟨0, _⟩ => rfl
    | ⟨1, _⟩ => rfl))

end Cert.Lib.HostRowMax

end
-- ==== Proof.LibColumnForms.lean ====
/-
  Three readings, at an entry, of operations that move between a column, a row and a vector, for any sizes.

  An `a × 1` column re-laid as a `1 × a` row, or flattened to a length-`a` vector, moves no entry: position `i` of the
  row or of the vector is entry `(i, 0)` of the column. A host sum along the lanes of an `n × k` array, started from
  an initial scalar, is at row `r` that scalar plus the sum of the row's `k` entries.
-/
import Idealize.ShloMosaic.Lib.Pipeline.Value
import Idealize.ShloMosaic.Lib.ValueIdx
import Idealize.ShloMosaic.PureOps.Ideal.Laws

noncomputable section

open scoped BigOperators

namespace Cert.Lib.ColumnForms

open Idealize.ShloMosaic Idealize.ShloMosaic.ValueIdx

variable {α : Type}

/-- An `a × 1` column re-laid as a `1 × a` row reads, at `(u, i)`, the column at `(i, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) := by
  refine shapeCast_apply x h (ix2 u i) (ix2 i (0 : Fin 1)) ?_
  rw [Shape.rowMajor_val_two, Shape.rowMajor_val_two]
  show i.val * 1 + 0 = u.val * a + i.val
  have hu : u.val = 0 := by omega
  rw [hu, Nat.zero_mul, Nat.zero_add, Nat.mul_one, Nat.add_zero]

/-- An `a × 1` column flattened to a length-`a` vector reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) := by
  refine shapeCast_apply x h (ix1 i) (ix2 i (0 : Fin 1)) ?_
  rw [Shape.rowMajor_val_two, Shape.rowMajor_val_one]
  show i.val * 1 + 0 = i.val
  rw [Nat.mul_one, Nat.add_zero]

/-- A host sum along the lanes of an `n × k` array from an initial scalar reads, at row `r`, the scalar plus the sum of
    that row's entries. The caller supplies the index-lifting form of the shape fact (decided at its literal shapes). -/
theorem hostRowSum_apply {n k : ℕ} (x : FVec Ideal ⟨2, ![n, k]⟩ .f32) (v : FVec Ideal ⟨0, ![]⟩ .f32)
    (h' : (⟨2, ![n, k]⟩ : Shape).ReducesTo [1] ⟨1, ![n]⟩) (h0 : 0 < (⟨0, ![]⟩ : Shape).numel)
    (h : (⟨2, ![n, k]⟩ : Shape).Reduces [1] ⟨1, ![n]⟩) (r : Fin n) :
    Host.reduceAdd x v h' h0 (ix1 r) = v (Shape.Idx.first h0) + ∑ c : Fin k, x (ix2 r c) := by
  simp only [Host.reduceAdd, Ideal.hostReduceAdd_def]
  rw [Ideal.hostReduceAdd_single h' h]
  refine congrArg (_ + ·) (Finset.sum_congr rfl fun c _ => ?_)
  exact congrArg x (funext fun a => Fin.ext (by match a with | ⟨0, _⟩ => rfl | ⟨1, _⟩ => rfl))

end Cert.Lib.ColumnForms

end
-- ==== Proof.RefForms.lean ====
/-
  The reference program's line of host operations cut into four stretches, and the reference's spellings of the two
  layers' activations read as the model's row-wise functions.

  The stretches are: the edge list taken apart with the first projection, the degrees and the edge weights; the
  first layer's aggregation, combination and rectifier; the second projection with the degrees and edge weights
  computed again; the second layer's aggregation, combination and log-softmax. The spread vectors, the matrix
  products and the row reductions are read at an entry; the reference's second maximum with minus infinity changes
  nothing, and its sum starts from the zero word.
-/
import proofs.«130149_j73942156968323_1_alg».proof.Proof.RefOps
import proofs.«130149_j73942156968323_1_alg».proof.Proof.Model
import proofs.«130149_j73942156968323_1_alg».proof.Proof.LibHostForms
import proofs.«130149_j73942156968323_1_alg».proof.Proof.LibHostRowMax
import proofs.«130149_j73942156968323_1_alg».proof.Proof.LibColumnForms
import proofs.«130149_j73942156968323_1_alg».proof.Proof.LibRowMax
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

/-! ## The line in four stretches -/

theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

theorem after_split (k : ℕ) (l : List (HloOp τ sig (Elt Ideal))) (V : Valuation τ sig (Elt Ideal)) :
    after l V = after (l.drop k) (after (l.take k) V) := by
  rw [← after_append, List.take_append_drop]

/-- The edge list taken apart, the first projection, the degrees and the edge weights. -/
abbrev seg1 : List (HloOp τ sig (Elt Ideal)) := (ops (F := Ideal)).take 34
/-- The first layer's aggregation, combination and rectifier. -/
abbrev seg2 : List (HloOp τ sig (Elt Ideal)) := ((ops (F := Ideal)).drop 34).take 27
/-- The second projection, and the degrees and edge weights again. -/
abbrev seg3 : List (HloOp τ sig (Elt Ideal)) := (((ops (F := Ideal)).drop 34).drop 27).take 30
/-- The second layer's aggregation, combination and log-softmax. -/
abbrev seg4 : List (HloOp τ sig (Elt Ideal)) := (((ops (F := Ideal)).drop 34).drop 27).drop 30

theorem after_ops (V : Valuation τ sig (Elt Ideal)) :
    after (ops (F := Ideal)) V = after seg4 (after seg3 (after seg2 (after seg1 V))) := by
  rw [after_split 34 ops V, after_split 27 (ops.drop 34) _, after_split 30 ((ops.drop 34).drop 27) _]

/-! ## The reference's spellings of the two activations -/

/-- A vector of node scales kept as a column and spread over 64 columns. -/
def colSpread64 (dd : FVec Ideal S100000 .f32) : FVec Ideal S100000x64 .f32 :=
  broadcastInDim S100000x64 ![0, 1] bcast_S100000x1_S100000x64_0_1 (broadcastInDim S100000x1 ![0] bcast_S100000_S100000x1_0 dd)
/-- A vector of 64 biases kept as a row and spread down the rows. -/
def rowSpread64 (b : FVec Ideal S64 .f32) : FVec Ideal S100000x64 .f32 :=
  broadcastInDim S100000x64 ![0, 1] bcast_S1x64_S100000x64_0_1 (broadcastInDim S1x64 ![1] bcast_S64_S1x64_1 b)
/-- The zero word spread over the 64-column table. -/
def zero64 : FVec Ideal S100000x64 .f32 :=
  broadcastInDim S100000x64 ![] bcast_S_S100000x64 (constant (F := Ideal) S_ .f32 0x00000000#32)
/-- A vector of node scales kept as a column and spread over 40 columns. -/
def colSpread40 (dd : FVec Ideal S100000 .f32) : FVec Ideal S100000x40 .f32 :=
  broadcastInDim S100000x40 ![0, 1] bcast_S100000x1_S100000x40_0_1 (broadcastInDim S100000x1 ![0] bcast_S100000_S100000x1_0 dd)
/-- A vector of 40 biases kept as a row and spread down the rows. -/
def rowSpread40 (b : FVec Ideal S40 .f32) : FVec Ideal S100000x40 .f32 :=
  broadcastInDim S100000x40 ![0, 1] bcast_S1x40_S100000x40_0_1 (broadcastInDim S1x40 ![1] bcast_S40_S1x40_1 b)

theorem colSpread64_apply (dd : FVec Ideal S100000 .f32) (p : Fin 100000) (q : Fin 64) : colSpread64 dd (ix2 p q) = dd (ix1 p) :=
  Cert.Lib.HostForms.bcast_col_chain_apply dd bcast_S100000_S100000x1_0 bcast_S100000x1_S100000x64_0_1 p q
theorem rowSpread64_apply (b : FVec Ideal S64 .f32) (p : Fin 100000) (q : Fin 64) : rowSpread64 b (ix2 p q) = b (ix1 q) :=
  Cert.Lib.HostForms.bcast_row_chain_apply b bcast_S64_S1x64_1 bcast_S1x64_S100000x64_0_1 p q
theorem zero64_apply (i : S100000x64.Idx) : zero64 i = Ideal.ofBits .f32 0x00000000#32 :=
  Cert.Lib.HostForms.bcast_scalar_apply _ bcast_S_S100000x64 i
theorem colSpread40_apply (dd : FVec Ideal S100000 .f32) (p : Fin 100000) (q : Fin 40) : colSpread40 dd (ix2 p q) = dd (ix1 p) :=
  Cert.Lib.HostForms.bcast_col_chain_apply dd bcast_S100000_S100000x1_0 bcast_S100000x1_S100000x40_0_1 p q
theorem rowSpread40_apply (b : FVec Ideal S40 .f32) (p : Fin 100000) (q : Fin 40) : rowSpread40 b (ix2 p q) = b (ix1 q) :=
  Cert.Lib.HostForms.bcast_row_chain_apply b bcast_S40_S1x40_1 bcast_S1x40_S100000x40_0_1 p q

/-- The first layer's combination and rectifier as the reference spells it. -/
def refRelu (A H : FVec Ideal S100000x64 .f32) (dd : FVec Ideal S100000 .f32) (b : FVec Ideal S64 .f32) :
    FVec Ideal S100000x64 .f32 :=
  maximumf (addf (addf A (mulf H (colSpread64 dd))) (rowSpread64 b)) zero64

/-- The second layer's combination as the reference spells it. -/
def refPre (A H : FVec Ideal S100000x40 .f32) (dd : FVec Ideal S100000 .f32) (b : FVec Ideal S40 .f32) :
    FVec Ideal S100000x40 .f32 :=
  addf (addf A (mulf H (colSpread40 dd))) (rowSpread40 b)

/-- The row maxima as the reference takes them: a maximum-reduce from minus infinity, then the maximum with minus
    infinity again. -/
def refMax (X : FVec Ideal S100000x40 .f32) : FVec Ideal S100000 .f32 :=
  maximumf (broadcastInDim S100000 ![] bcast_S_S100000 (constant (F := Ideal) S_ .f32 0xFF800000#32))
    (Host.reduce FloatOps.maximumf X (constant (F := Ideal) S_ .f32 0xFF800000#32) reducesTo_S100000x40_S100000_d1 h_S_)

/-- The table shifted by its row maxima. -/
def refShift (X : FVec Ideal S100000x40 .f32) : FVec Ideal S100000x40 .f32 :=
  subf X (colSpread40 (refMax X))

/-- The logarithm of each row's sum, kept as a column and spread back along the rows. -/
def refLogSum (Z : FVec Ideal S100000x40 .f32) : FVec Ideal S100000x40 .f32 :=
  broadcastInDim S100000x40 ![0, 1] bcast_S100000x1_S100000x40_0_1
    (Host.log (broadcastInDim S100000x1 ![0] bcast_S100000_S100000x1_0
      (Host.reduceAdd Z (constant (F := Ideal) S_ .f32 0x00000000#32) reducesTo_S100000x40_S100000_d1 h_S_)))

/-- The log-softmax along the rows as the reference spells it. -/
def refLogSoftmax (X : FVec Ideal S100000x40 .f32) : FVec Ideal S100000x40 .f32 :=
  subf (refShift X) (refLogSum (Host.exp (refShift X)))

/-! ## The spellings are the model's functions -/

theorem dot1_eq (A : FVec Ideal S100000x128 .f32) (B : FVec Ideal S128x64 .f32) :
    Host.dotGeneral (F := Ideal) dot_S100000x128_S128x64_S100000x64_1_0_0_1_n_n none A B = matProd A B := by
  funext i
  obtain ⟨p, q, rfl⟩ : ∃ (p : Fin 100000) (q : Fin 64), i = ix2 p q := ⟨i 0, i 1, eq_ix2 i⟩
  exact Cert.Lib.HostForms.plain_dotGeneral_apply dot_S100000x128_S128x64_S100000x64_1_0_0_1_n_n rfl none A B p q

theorem dot2_eq (A : FVec Ideal S100000x64 .f32) (B : FVec Ideal S64x40 .f32) :
    Host.dotGeneral (F := Ideal) dot_S100000x64_S64x40_S100000x40_1_0_0_1_n_n none A B = matProd A B := by
  funext i
  obtain ⟨p, q, rfl⟩ : ∃ (p : Fin 100000) (q : Fin 40), i = ix2 p q := ⟨i 0, i 1, eq_ix2 i⟩
  exact Cert.Lib.HostForms.plain_dotGeneral_apply dot_S100000x64_S64x40_S100000x40_1_0_0_1_n_n rfl none A B p q

theorem refRelu_eq (A H : FVec Ideal S100000x64 .f32) (dd : FVec Ideal S100000 .f32) (b : FVec Ideal S64 .f32) :
    refRelu A H dd b = reluRows A H dd b := by
  funext i
  obtain ⟨p, q, rfl⟩ : ∃ (p : Fin 100000) (q : Fin 64), i = ix2 p q := ⟨i 0, i 1, eq_ix2 i⟩
  show max (A (ix2 p q) + H (ix2 p q) * colSpread64 dd (ix2 p q) + rowSpread64 b (ix2 p q)) (zero64 (ix2 p q))
    = max (A (ix2 p q) + H (ix2 p q) * dd (ix1 p) + b (ix1 q)) (Ideal.ofBits .f32 0x00000000#32)
  rw [colSpread64_apply, rowSpread64_apply, zero64_apply]

theorem refPre_eq (A H : FVec Ideal S100000x40 .f32) (dd : FVec Ideal S100000 .f32) (b : FVec Ideal S40 .f32) :
    refPre A H dd b = combine A H dd b := by
  funext i
  obtain ⟨p, q, rfl⟩ : ∃ (p : Fin 100000) (q : Fin 40), i = ix2 p q := ⟨i 0, i 1, eq_ix2 i⟩
  show A (ix2 p q) + H (ix2 p q) * colSpread40 dd (ix2 p q) + rowSpread40 b (ix2 p q)
    = A (ix2 p q) + H (ix2 p q) * dd (ix1 p) + b (ix1 q)
  rw [colSpread40_apply, rowSpread40_apply]

/-- The maximum with minus infinity spread over a vector is the vector. -/
theorem maximumf_negInf (Y : FVec Ideal S100000 .f32) :
    maximumf (broadcastInDim S100000 ![] bcast_S_S100000 (constant (F := Ideal) S_ .f32 0xFF800000#32)) Y = Y := by
  funext i
  show max (broadcastInDim S100000 ![] bcast_S_S100000 (constant (F := Ideal) S_ .f32 0xFF800000#32) i) (Y i) = Y i
  rw [Cert.Lib.HostForms.bcast_scalar_apply]
  exact Cert.Lib.RowMax.max_negInf _

/-- The reference's row maximum is the fold of `max` over the row: the second maximum with minus infinity changes
    nothing. -/
theorem refMax_apply (X : FVec Ideal S100000x40 .f32) (p : Fin 100000) : refMax X (ix1 p) = rowMax X p := by
  unfold refMax
  rw [maximumf_negInf]
  exact Cert.Lib.HostRowMax.hostLaneMax_apply X _ reducesTo_S100000x40_S100000_d1 (by decide) h_S_ p

theorem refShift_apply (X : FVec Ideal S100000x40 .f32) (p : Fin 100000) (q : Fin 40) :
    refShift X (ix2 p q) = X (ix2 p q) - rowMax X p := by
  show X (ix2 p q) - colSpread40 (refMax X) (ix2 p q) = _
  rw [colSpread40_apply, refMax_apply]

theorem refLogSum_apply (Z : FVec Ideal S100000x40 .f32) (p : Fin 100000) (q : Fin 40) :
    refLogSum Z (ix2 p q) = Ideal.log (∑ c : Fin 40, Z (ix2 p c)) := by
  unfold refLogSum
  refine (Cert.Lib.HostForms.bcast_col_spread_apply _ bcast_S100000x1_S100000x40_0_1 p q).trans ?_
  refine (Cert.Lib.HostForms.hostLog_apply _ (ix2 p (0 : Fin 1))).trans (congrArg Ideal.log ?_)
  refine (Cert.Lib.HostForms.bcast_vec_col_apply _ bcast_S100000_S100000x1_0 p (0 : Fin 1)).trans ?_
  refine (Cert.Lib.ColumnForms.hostRowSum_apply Z _ reducesTo_S100000x40_S100000_d1 h_S_ (by decide) p).trans ?_
  exact Cert.Lib.HostForms.zero_word_add _ rfl _ _

theorem refLogSoftmax_eq (X : FVec Ideal S100000x40 .f32) : refLogSoftmax X = logSoftmaxRows X := by
  funext i
  obtain ⟨p, q, rfl⟩ : ∃ (p : Fin 100000) (q : Fin 40), i = ix2 p q := ⟨i 0, i 1, eq_ix2 i⟩
  show refShift X (ix2 p q) - refLogSum (Host.exp (refShift X)) (ix2 p q)
    = (X (ix2 p q) - rowMax X p) - Ideal.log (∑ c : Fin 40, Ideal.exp (X (ix2 p c) - rowMax X p))
  rw [refLogSum_apply, refShift_apply]
  refine congrArg (fun s => (X (ix2 p q) - rowMax X p) - Ideal.log s) (Finset.sum_congr rfl fun c _ => ?_)
  show Ideal.exp (refShift X (ix2 p c)) = _
  rw [refShift_apply]

end Cert.ReferenceIdeal.RefValue

end
-- ==== Proof.RefSeg1.lean ====
/-
  The reference's first stretch of host operations, read from an arbitrary valuation of the buffers: what it
  leaves in the buffers later stretches read, as the model's named functions of what it finds, and the buffers it
  leaves as they were.
-/
import proofs.«130149_j73942156968323_1_alg».proof.Proof.RefForms
import Idealize.ShloMosaic.Lib.StableHlo.Run

set_option maxRecDepth 16384
set_option Elab.async false

noncomputable section

namespace Cert.ReferenceIdeal.RefValue

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

set_option maxHeartbeats 4000000 in
/-- After the first stretch: the edges' sources. -/
theorem s1_v1 (U : Valuation τ sig (Elt Ideal)) :
    after seg1 U (Proc.devRef .tc main_v1) = srcOf (U (Proc.devRef .tc main_arg1)) := by
  simp only [seg1, ops, List.take_succ_cons, List.take_zero]
  after_results_simp
  first | done | rfl

set_option maxHeartbeats 4000000 in
/-- After the first stretch: the edges' targets. -/
theorem s1_v3 (U : Valuation τ sig (Elt Ideal)) :
    after seg1 U (Proc.devRef .tc main_v3) = dstOf (U (Proc.devRef .tc main_arg1)) := by
  simp only [seg1, ops, List.take_succ_cons, List.take_zero]
  after_results_simp
  first | done | rfl

set_option maxHeartbeats 4000000 in
/-- After the first stretch: the first projection. -/
theorem s1_v4 (U : Valuation τ sig (Elt Ideal)) :
    after seg1 U (Proc.devRef .tc main_v4) = Host.dotGeneral (F := Ideal) (φ₁ := .f32) (φ₂ := .f32) dot_S100000x128_S128x64_S100000x64_1_0_0_1_n_n none (U (Proc.devRef .tc main_arg0)) (U (Proc.devRef .tc main_arg2)) := by
  simp only [seg1, ops, List.take_succ_cons, List.take_zero]
  after_results_simp
  first | done | rfl

set_option maxHeartbeats 4000000 in
/-- After the first stretch: the inverse square-root degrees. -/
theorem s1_v11 (U : Valuation τ sig (Elt Ideal)) :
    after seg1 U (Proc.devRef .tc main_v11) = dinvOf (dstOf (U (Proc.devRef .tc main_arg1))) := by
  simp only [seg1, ops, List.take_succ_cons, List.take_zero]
  after_results_simp
  first | done | rfl

set_option maxHeartbeats 4000000 in
/-- After the first stretch: the edge weights. -/
theorem s1_v26 (U : Valuation τ sig (Elt Ideal)) :
    after seg1 U (Proc.devRef .tc main_v26) = normOf (srcOf (U (Proc.devRef .tc main_arg1))) (dstOf (U (Proc.devRef .tc main_arg1))) (dinvOf (dstOf (U (Proc.devRef .tc main_arg1)))) := by
  simp only [seg1, ops, List.take_succ_cons, List.take_zero]
  after_results_simp
  first | done | rfl

set_option maxHeartbeats 4000000 in
/-- The first stretch leaves this argument as it was. -/
theorem s1_arg3 (U : Valuation τ sig (Elt Ideal)) :
    after seg1 U (Proc.devRef .tc main_arg3) = (U (Proc.devRef .tc main_arg3)) := by
  simp only [seg1, ops, List.take_succ_cons, List.take_zero]
  after_results_simp
  first | done | rfl

set_option maxHeartbeats 4000000 in
/-- The first stretch leaves this argument as it was. -/
theorem s1_arg4 (U : Valuation τ sig (Elt Ideal)) :
    after seg1 U (Proc.devRef .tc main_arg4) = (U (Proc.devRef .tc main_arg4)) := by
  simp only [seg1, ops, List.take_succ_cons, List.take_zero]
  after_results_simp
  first | done | rfl

set_option maxHeartbeats 4000000 in
/-- The first stretch leaves this argument as it was. -/
theorem s1_arg5 (U : Valuation τ sig (Elt Ideal)) :
    after seg1 U (Proc.devRef .tc main_arg5) = (U (Proc.devRef .tc main_arg5)) := by
  simp only [seg1, ops, List.take_succ_cons, List.take_zero]
  after_results_simp
  first | done | rfl

end Cert.ReferenceIdeal.RefValue

end
-- ==== Proof.RefSeg2.lean ====
/-
  The reference's second stretch of host operations, read from an arbitrary valuation of the buffers: what it
  leaves in the buffers later stretches read, as the model's named functions of what it finds, and the buffers it
  leaves as they were.
-/
import proofs.«130149_j73942156968323_1_alg».proof.Proof.RefForms
import Idealize.ShloMosaic.Lib.StableHlo.Run

set_option maxRecDepth 16384
set_option Elab.async false

noncomputable section

namespace Cert.ReferenceIdeal.RefValue

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

/-! A called function's operations move their values between the buffer's own type and the value's type; at these
    buffers the two are the same type and the move is the identity. -/

theorem toBuf_v48 (v : FVec Ideal S100000x64 .f32) :
    (TRef.of (sig := sig) (T := ⟨S100000x64, .f32⟩) main_v48).toBuf (Val := Elt Ideal) v = v := rfl
theorem ofBuf_v48 (v : FVec Ideal S100000x64 .f32) :
    (TRef.of (sig := sig) (T := ⟨S100000x64, .f32⟩) main_v48).ofBuf (Val := Elt Ideal) v = v := rfl
theorem toBuf_v47 (v : FVec Ideal S100000x64 .f32) :
    (TRef.of (sig := sig) (T := ⟨S100000x64, .f32⟩) main_v47).toBuf (Val := Elt Ideal) v = v := rfl
theorem ofBuf_v47 (v : FVec Ideal S100000x64 .f32) :
    (TRef.of (sig := sig) (T := ⟨S100000x64, .f32⟩) main_v47).ofBuf (Val := Elt Ideal) v = v := rfl
theorem toBuf_call0_v0 (v : FVec Ideal S100000x64 .f32) :
    (TRef.of (sig := sig) (T := ⟨S100000x64, .f32⟩) main_call0_v0).toBuf (Val := Elt Ideal) v = v := rfl
theorem ofBuf_call0_v0 (v : FVec Ideal S100000x64 .f32) :
    (TRef.of (sig := sig) (T := ⟨S100000x64, .f32⟩) main_call0_v0).ofBuf (Val := Elt Ideal) v = v := rfl
theorem toBuf_call0_cst (v : FVec Ideal S_ .f32) :
    (TRef.of (sig := sig) (T := ⟨S_, .f32⟩) main_call0_cst).toBuf (Val := Elt Ideal) v = v := rfl
theorem ofBuf_call0_cst (v : FVec Ideal S_ .f32) :
    (TRef.of (sig := sig) (T := ⟨S_, .f32⟩) main_call0_cst).ofBuf (Val := Elt Ideal) v = v := rfl

set_option maxHeartbeats 4000000 in
/-- After the second stretch: the first layer's output. -/
theorem s2_v48 (U : Valuation τ sig (Elt Ideal)) :
    after seg2 U (Proc.devRef .tc main_v48) = refRelu (agg64 (U (Proc.devRef .tc main_v4)) (U (Proc.devRef .tc main_v1)) (U (Proc.devRef .tc main_v3)) (U (Proc.devRef .tc main_v26))) (U (Proc.devRef .tc main_v4)) (mulf (U (Proc.devRef .tc main_v11)) (U (Proc.devRef .tc main_v11))) (U (Proc.devRef .tc main_arg3)) := by
  simp only [seg2, ops, List.take_succ_cons, List.take_zero, List.drop_succ_cons, List.drop_zero]
  after_results_simp
  rw [toBuf_v48, ofBuf_v47, ofBuf_call0_v0, toBuf_call0_v0, ofBuf_call0_cst, toBuf_call0_cst]
  unfold refRelu agg64 wrapIdx colSpread64 rowSpread64 zero64
  with_reducible rfl

set_option maxHeartbeats 4000000 in
/-- The second stretch leaves this buffer as it was. -/
theorem s2_v1 (U : Valuation τ sig (Elt Ideal)) :
    after seg2 U (Proc.devRef .tc main_v1) = (U (Proc.devRef .tc main_v1)) := by
  simp only [seg2, ops, List.take_succ_cons, List.take_zero, List.drop_succ_cons, List.drop_zero]
  after_results_simp
  first | done | rfl

set_option maxHeartbeats 4000000 in
/-- The second stretch leaves this buffer as it was. -/
theorem s2_v3 (U : Valuation τ sig (Elt Ideal)) :
    after seg2 U (Proc.devRef .tc main_v3) = (U (Proc.devRef .tc main_v3)) := by
  simp only [seg2, ops, List.take_succ_cons, List.take_zero, List.drop_succ_cons, List.drop_zero]
  after_results_simp
  first | done | rfl

set_option maxHeartbeats 4000000 in
/-- The second stretch leaves this buffer as it was. -/
theorem s2_arg4 (U : Valuation τ sig (Elt Ideal)) :
    after seg2 U (Proc.devRef .tc main_arg4) = (U (Proc.devRef .tc main_arg4)) := by
  simp only [seg2, ops, List.take_succ_cons, List.take_zero, List.drop_succ_cons, List.drop_zero]
  after_results_simp
  first | done | rfl

set_option maxHeartbeats 4000000 in
/-- The second stretch leaves this buffer as it was. -/
theorem s2_arg5 (U : Valuation τ sig (Elt Ideal)) :
    after seg2 U (Proc.devRef .tc main_arg5) = (U (Proc.devRef .tc main_arg5)) := by
  simp only [seg2, ops, List.take_succ_cons, List.take_zero, List.drop_succ_cons, List.drop_zero]
  after_results_simp
  first | done | rfl

end Cert.ReferenceIdeal.RefValue

end
-- ==== Proof.RefSeg3.lean ====
/-
  The reference's third stretch of host operations, read from an arbitrary valuation of the buffers: what it
  leaves in the buffers later stretches read, as the model's named functions of what it finds, and the buffers it
  leaves as they were.
-/
import proofs.«130149_j73942156968323_1_alg».proof.Proof.RefForms
import Idealize.ShloMosaic.Lib.StableHlo.Run

set_option maxRecDepth 16384
set_option Elab.async false

noncomputable section

namespace Cert.ReferenceIdeal.RefValue

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

set_option maxHeartbeats 4000000 in
/-- After the third stretch: the second projection. -/
theorem s3_v49 (U : Valuation τ sig (Elt Ideal)) :
    after seg3 U (Proc.devRef .tc main_v49) = Host.dotGeneral (F := Ideal) (φ₁ := .f32) (φ₂ := .f32) dot_S100000x64_S64x40_S100000x40_1_0_0_1_n_n none (U (Proc.devRef .tc main_v48)) (U (Proc.devRef .tc main_arg4)) := by
  simp only [seg3, ops, List.take_succ_cons, List.take_zero, List.drop_succ_cons, List.drop_zero]
  after_results_simp
  first | done | rfl

set_option maxHeartbeats 4000000 in
/-- After the third stretch: the inverse square-root degrees, computed again. -/
theorem s3_v56 (U : Valuation τ sig (Elt Ideal)) :
    after seg3 U (Proc.devRef .tc main_v56) = dinvOf (U (Proc.devRef .tc main_v3)) := by
  simp only [seg3, ops, List.take_succ_cons, List.take_zero, List.drop_succ_cons, List.drop_zero]
  after_results_simp
  first | done | rfl

set_option maxHeartbeats 4000000 in
/-- After the third stretch: the edge weights, computed again. -/
theorem s3_v71 (U : Valuation τ sig (Elt Ideal)) :
    after seg3 U (Proc.devRef .tc main_v71) = normOf (U (Proc.devRef .tc main_v1)) (U (Proc.devRef .tc main_v3)) (dinvOf (U (Proc.devRef .tc main_v3))) := by
  simp only [seg3, ops, List.take_succ_cons, List.take_zero, List.drop_succ_cons, List.drop_zero]
  after_results_simp
  first | done | rfl

set_option maxHeartbeats 4000000 in
/-- The third stretch leaves this buffer as it was. -/
theorem s3_v1 (U : Valuation τ sig (Elt Ideal)) :
    after seg3 U (Proc.devRef .tc main_v1) = (U (Proc.devRef .tc main_v1)) := by
  simp only [seg3, ops, List.take_succ_cons, List.take_zero, List.drop_succ_cons, List.drop_zero]
  after_results_simp
  first | done | rfl

set_option maxHeartbeats 4000000 in
/-- The third stretch leaves this buffer as it was. -/
theorem s3_v3 (U : Valuation τ sig (Elt Ideal)) :
    after seg3 U (Proc.devRef .tc main_v3) = (U (Proc.devRef .tc main_v3)) := by
  simp only [seg3, ops, List.take_succ_cons, List.take_zero, List.drop_succ_cons, List.drop_zero]
  after_results_simp
  first | done | rfl

set_option maxHeartbeats 4000000 in
/-- The third stretch leaves this buffer as it was. -/
theorem s3_arg5 (U : Valuation τ sig (Elt Ideal)) :
    after seg3 U (Proc.devRef .tc main_arg5) = (U (Proc.devRef .tc main_arg5)) := by
  simp only [seg3, ops, List.take_succ_cons, List.take_zero, List.drop_succ_cons, List.drop_zero]
  after_results_simp
  first | done | rfl

end Cert.ReferenceIdeal.RefValue

end
-- ==== Proof.RefSeg4.lean ====
/-
  The reference's fourth stretch of host operations, read from an arbitrary valuation of the buffers: what it
  leaves in the buffers later stretches read, as the model's named functions of what it finds, and the buffers it
  leaves as they were.
-/
import proofs.«130149_j73942156968323_1_alg».proof.Proof.RefForms
import Idealize.ShloMosaic.Lib.StableHlo.Run

set_option maxRecDepth 16384
set_option Elab.async false

noncomputable section

namespace Cert.ReferenceIdeal.RefValue

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

/-! A called function's operations move their values between the buffer's own type and the value's type; at these
    buffers the two are the same type and the move is the identity. -/

theorem toBuf_call1_cst (v : FVec Ideal S_ .f32) :
    (TRef.of (sig := sig) (T := ⟨S_, .f32⟩) main_call1_cst).toBuf (Val := Elt Ideal) v = v := rfl
theorem ofBuf_call1_cst (v : FVec Ideal S_ .f32) :
    (TRef.of (sig := sig) (T := ⟨S_, .f32⟩) main_call1_cst).ofBuf (Val := Elt Ideal) v = v := rfl
theorem toBuf_v92 (v : FVec Ideal S100000x40 .f32) :
    (TRef.of (sig := sig) (T := ⟨S100000x40, .f32⟩) main_v92).toBuf (Val := Elt Ideal) v = v := rfl
theorem ofBuf_v92 (v : FVec Ideal S100000x40 .f32) :
    (TRef.of (sig := sig) (T := ⟨S100000x40, .f32⟩) main_v92).ofBuf (Val := Elt Ideal) v = v := rfl
theorem toBuf_call1_v0 (v : FVec Ideal S100000 .f32) :
    (TRef.of (sig := sig) (T := ⟨S100000, .f32⟩) main_call1_v0).toBuf (Val := Elt Ideal) v = v := rfl
theorem ofBuf_call1_v0 (v : FVec Ideal S100000 .f32) :
    (TRef.of (sig := sig) (T := ⟨S100000, .f32⟩) main_call1_v0).ofBuf (Val := Elt Ideal) v = v := rfl
theorem toBuf_call1_cst_0 (v : FVec Ideal S_ .f32) :
    (TRef.of (sig := sig) (T := ⟨S_, .f32⟩) main_call1_cst_0).toBuf (Val := Elt Ideal) v = v := rfl
theorem ofBuf_call1_cst_0 (v : FVec Ideal S_ .f32) :
    (TRef.of (sig := sig) (T := ⟨S_, .f32⟩) main_call1_cst_0).ofBuf (Val := Elt Ideal) v = v := rfl
theorem toBuf_call1_v1 (v : FVec Ideal S100000 .f32) :
    (TRef.of (sig := sig) (T := ⟨S100000, .f32⟩) main_call1_v1).toBuf (Val := Elt Ideal) v = v := rfl
theorem ofBuf_call1_v1 (v : FVec Ideal S100000 .f32) :
    (TRef.of (sig := sig) (T := ⟨S100000, .f32⟩) main_call1_v1).ofBuf (Val := Elt Ideal) v = v := rfl
theorem toBuf_call1_v2 (v : FVec Ideal S100000 .f32) :
    (TRef.of (sig := sig) (T := ⟨S100000, .f32⟩) main_call1_v2).toBuf (Val := Elt Ideal) v = v := rfl
theorem ofBuf_call1_v2 (v : FVec Ideal S100000 .f32) :
    (TRef.of (sig := sig) (T := ⟨S100000, .f32⟩) main_call1_v2).ofBuf (Val := Elt Ideal) v = v := rfl
theorem toBuf_call1_v3 (v : FVec Ideal S100000x1 .f32) :
    (TRef.of (sig := sig) (T := ⟨S100000x1, .f32⟩) main_call1_v3).toBuf (Val := Elt Ideal) v = v := rfl
theorem ofBuf_call1_v3 (v : FVec Ideal S100000x1 .f32) :
    (TRef.of (sig := sig) (T := ⟨S100000x1, .f32⟩) main_call1_v3).ofBuf (Val := Elt Ideal) v = v := rfl
theorem toBuf_call1_v4 (v : FVec Ideal S100000x40 .f32) :
    (TRef.of (sig := sig) (T := ⟨S100000x40, .f32⟩) main_call1_v4).toBuf (Val := Elt Ideal) v = v := rfl
theorem ofBuf_call1_v4 (v : FVec Ideal S100000x40 .f32) :
    (TRef.of (sig := sig) (T := ⟨S100000x40, .f32⟩) main_call1_v4).ofBuf (Val := Elt Ideal) v = v := rfl
theorem toBuf_call1_v5 (v : FVec Ideal S100000x40 .f32) :
    (TRef.of (sig := sig) (T := ⟨S100000x40, .f32⟩) main_call1_v5).toBuf (Val := Elt Ideal) v = v := rfl
theorem ofBuf_call1_v5 (v : FVec Ideal S100000x40 .f32) :
    (TRef.of (sig := sig) (T := ⟨S100000x40, .f32⟩) main_call1_v5).ofBuf (Val := Elt Ideal) v = v := rfl
theorem toBuf_call1_v6 (v : FVec Ideal S100000x40 .f32) :
    (TRef.of (sig := sig) (T := ⟨S100000x40, .f32⟩) main_call1_v6).toBuf (Val := Elt Ideal) v = v := rfl
theorem ofBuf_call1_v6 (v : FVec Ideal S100000x40 .f32) :
    (TRef.of (sig := sig) (T := ⟨S100000x40, .f32⟩) main_call1_v6).ofBuf (Val := Elt Ideal) v = v := rfl
theorem toBuf_call1_cst_1 (v : FVec Ideal S_ .f32) :
    (TRef.of (sig := sig) (T := ⟨S_, .f32⟩) main_call1_cst_1).toBuf (Val := Elt Ideal) v = v := rfl
theorem ofBuf_call1_cst_1 (v : FVec Ideal S_ .f32) :
    (TRef.of (sig := sig) (T := ⟨S_, .f32⟩) main_call1_cst_1).ofBuf (Val := Elt Ideal) v = v := rfl
theorem toBuf_call1_v7 (v : FVec Ideal S100000 .f32) :
    (TRef.of (sig := sig) (T := ⟨S100000, .f32⟩) main_call1_v7).toBuf (Val := Elt Ideal) v = v := rfl
theorem ofBuf_call1_v7 (v : FVec Ideal S100000 .f32) :
    (TRef.of (sig := sig) (T := ⟨S100000, .f32⟩) main_call1_v7).ofBuf (Val := Elt Ideal) v = v := rfl
theorem toBuf_call1_v8 (v : FVec Ideal S100000x1 .f32) :
    (TRef.of (sig := sig) (T := ⟨S100000x1, .f32⟩) main_call1_v8).toBuf (Val := Elt Ideal) v = v := rfl
theorem ofBuf_call1_v8 (v : FVec Ideal S100000x1 .f32) :
    (TRef.of (sig := sig) (T := ⟨S100000x1, .f32⟩) main_call1_v8).ofBuf (Val := Elt Ideal) v = v := rfl
theorem toBuf_call1_v9 (v : FVec Ideal S100000x1 .f32) :
    (TRef.of (sig := sig) (T := ⟨S100000x1, .f32⟩) main_call1_v9).toBuf (Val := Elt Ideal) v = v := rfl
theorem ofBuf_call1_v9 (v : FVec Ideal S100000x1 .f32) :
    (TRef.of (sig := sig) (T := ⟨S100000x1, .f32⟩) main_call1_v9).ofBuf (Val := Elt Ideal) v = v := rfl
theorem toBuf_call1_v10 (v : FVec Ideal S100000x40 .f32) :
    (TRef.of (sig := sig) (T := ⟨S100000x40, .f32⟩) main_call1_v10).toBuf (Val := Elt Ideal) v = v := rfl
theorem ofBuf_call1_v10 (v : FVec Ideal S100000x40 .f32) :
    (TRef.of (sig := sig) (T := ⟨S100000x40, .f32⟩) main_call1_v10).ofBuf (Val := Elt Ideal) v = v := rfl
theorem toBuf_v93 (v : FVec Ideal S100000x40 .f32) :
    (TRef.of (sig := sig) (T := ⟨S100000x40, .f32⟩) main_v93).toBuf (Val := Elt Ideal) v = v := rfl
theorem ofBuf_v93 (v : FVec Ideal S100000x40 .f32) :
    (TRef.of (sig := sig) (T := ⟨S100000x40, .f32⟩) main_v93).ofBuf (Val := Elt Ideal) v = v := rfl

set_option maxHeartbeats 4000000 in
/-- After the fourth stretch: the result. -/
theorem s4_v93 (U : Valuation τ sig (Elt Ideal)) :
    after seg4 U (Proc.devRef .tc main_v93) = refLogSoftmax (refPre (agg40 (U (Proc.devRef .tc main_v49)) (U (Proc.devRef .tc main_v1)) (U (Proc.devRef .tc main_v3)) (U (Proc.devRef .tc main_v71))) (U (Proc.devRef .tc main_v49)) (mulf (U (Proc.devRef .tc main_v56)) (U (Proc.devRef .tc main_v56))) (U (Proc.devRef .tc main_arg5))) := by
  simp only [seg4, ops, List.drop_succ_cons, List.drop_zero]
  after_results_simp
  repeat (first | rw [toBuf_call1_cst] | rw [ofBuf_call1_cst] | rw [toBuf_v92] | rw [ofBuf_v92] | rw [toBuf_call1_v0] | rw [ofBuf_call1_v0] | rw [toBuf_call1_cst_0] | rw [ofBuf_call1_cst_0] | rw [toBuf_call1_v1] | rw [ofBuf_call1_v1] | rw [toBuf_call1_v2] | rw [ofBuf_call1_v2] | rw [toBuf_call1_v3] | rw [ofBuf_call1_v3] | rw [toBuf_call1_v4] | rw [ofBuf_call1_v4] | rw [toBuf_call1_v5] | rw [ofBuf_call1_v5] | rw [toBuf_call1_v6] | rw [ofBuf_call1_v6] | rw [toBuf_call1_cst_1] | rw [ofBuf_call1_cst_1] | rw [toBuf_call1_v7] | rw [ofBuf_call1_v7] | rw [toBuf_call1_v8] | rw [ofBuf_call1_v8] | rw [toBuf_call1_v9] | rw [ofBuf_call1_v9] | rw [toBuf_call1_v10] | rw [ofBuf_call1_v10] | rw [toBuf_v93] | rw [ofBuf_v93])
  unfold refLogSoftmax refShift refLogSum refMax refPre agg40 wrapIdx colSpread40 rowSpread40
  with_reducible rfl

end Cert.ReferenceIdeal.RefValue

end
-- ==== Proof.RefValue.lean ====
/-
  The reference program's result as the network function of its arguments: the four stretches composed.
-/
import proofs.«130149_j73942156968323_1_alg».proof.Proof.RefForms
import proofs.«130149_j73942156968323_1_alg».proof.Proof.RefSeg1
import proofs.«130149_j73942156968323_1_alg».proof.Proof.RefSeg2
import proofs.«130149_j73942156968323_1_alg».proof.Proof.RefSeg3
import proofs.«130149_j73942156968323_1_alg».proof.Proof.RefSeg4
import Idealize.ShloMosaic.Lib.StableHlo.Run

set_option maxRecDepth 16384

noncomputable section

namespace Cert.ReferenceIdeal.RefValue

open Cert.ReferenceIdeal Cert.ReferenceIdeal.Gen Cert.ReferenceIdeal.ValueP Cert.Gcn
open Idealize.ShloMosaic Idealize.ShloMosaic.TcCoe Idealize.ShloMosaic.ValueIdx Idealize.SL.Sem Idealize.ShloMosaic.StableHlo

/-! ## The result -/

set_option maxHeartbeats 4000000 in
/-- From any valuation of the buffers the line leaves, in the result buffer, the network function of the six
    argument buffers' contents. -/
theorem ref_value (U : Valuation τ sig (Elt Ideal)) :
    after (ops (F := Ideal)) U (Proc.devRef .tc main_v93)
      = gcnOut (U (Proc.devRef .tc main_arg0)) (U (Proc.devRef .tc main_arg1)) (U (Proc.devRef .tc main_arg2)) (U (Proc.devRef .tc main_arg3)) (U (Proc.devRef .tc main_arg4)) (U (Proc.devRef .tc main_arg5)) := by
  rw [after_ops, s4_v93, s3_v49, s3_v56, s3_v71, s3_v1, s3_v3, s3_arg5,
    s2_v48, s2_v1, s2_v3, s2_arg4, s2_arg5,
    s1_v4, s1_v1, s1_v3, s1_v11, s1_v26, s1_arg3, s1_arg4, s1_arg5,
    dot1_eq, dot2_eq, refRelu_eq, refLogSoftmax_eq, refPre_eq]
  rfl

end Cert.ReferenceIdeal.RefValue

end
-- ==== Proof.RefRun.lean ====
/-
  The reference program's run: it terminates without a fault, its result array ends at the network function of the
  argument arrays as launched, and the argument arrays end unchanged.

  The program is a line of host operations, so every buffer ends at the line's fold from the launch contents; the
  result buffer's entry of that fold is the network function (the stretch-by-stretch reading), and no operation
  writes an argument buffer.
-/
import proofs.«130149_j73942156968323_1_alg».proof.Proof.RefOps
import proofs.«130149_j73942156968323_1_alg».proof.Proof.RefValue
import Idealize.ShloMosaic.Lib.StableHlo.Run

noncomputable section

namespace Cert.ReferenceIdeal.RefRun

open Cert.ReferenceIdeal Cert.ReferenceIdeal.Gen Cert.ReferenceIdeal.ValueP Cert.ReferenceIdeal.RefValue Cert.Gcn
open Idealize.ShloMosaic Idealize.ShloMosaic.TcCoe Idealize.SL.Sem Idealize.ShloMosaic.StableHlo

set_option maxRecDepth 8192 in
set_option maxHeartbeats 52000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93)
        = gcnOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (ref_value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.lean ====
/-
  A two-layer graph convolution over 100000 nodes and 1600000 edges, as four row-tiled kernels among host
  scatter-adds and gathers, against its plain jnp reference: the two idealized programs compute the same array.

  Each layer projects the node features (`h = X · W`), sums over every node's incoming edges the sources' projected
  rows times the edge weights (`agg`), and forms `agg + h * d + b` with `d` the node's squared inverse square-root
  degree and `b` the bias; the first layer ends with a rectifier, the second with a log-softmax along each row. The
  kernel program does the two projections and the two combinations in pallas kernels over ten blocks of 10000 rows
  and leaves the degrees, the edge weights and the aggregations to the same host operations the reference uses; the
  reference does everything on the host and computes the degrees and edge weights once per layer.

  Over the extended reals every output row depends on the same row of the row-blocked operands only, so a kernel's
  blocks are the blocks of one whole-array function (the projections: a row of a matrix product; the combinations:
  a pointwise expression and, for the log-softmax, a maximum and a sum along the row), and a change of float format
  on the way into a matrix product is the identity. The shared host operations are never opened: both programs'
  results are shown to be ONE function `Cert.Gcn.gcnOut` of the six argument arrays. No law of the extended reals
  beyond reading sums and maxima at an entry is needed (only that the maximum with minus infinity is the other
  operand and that zero plus a sum is the sum), so the finiteness precondition is not used.

  The frames of the two kernel programs are the generated ones; the reference's frame is its run with the result
  dropped; the ideal pass rewrote nothing, so `preserves` is trivial.
-/
import proofs.«130149_j73942156968323_1_alg».proof.Defs
import proofs.«130149_j73942156968323_1_alg».proof.Proof.Gen.Kernel
import proofs.«130149_j73942156968323_1_alg».proof.Proof.Gen.Kernel.Frame
import proofs.«130149_j73942156968323_1_alg».proof.Proof.Gen.KernelIdeal
import proofs.«130149_j73942156968323_1_alg».proof.Proof.Gen.KernelIdeal.Frame
import proofs.«130149_j73942156968323_1_alg».proof.Proof.Gen.ReferenceIdeal
import proofs.«130149_j73942156968323_1_alg».proof.Proof.Gen.Pre_finite_inputs
import proofs.«130149_j73942156968323_1_alg».proof.Proof.KernelRun
import proofs.«130149_j73942156968323_1_alg».proof.Proof.KernelValue
import proofs.«130149_j73942156968323_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run m ρ)

/-- Both idealized programs end with the network function of the (agreeing) argument arrays in their result
    arrays. -/
theorem algebraic : Cert.algebraic_KernelIdeal_ReferenceIdeal := by
  intro m ρ m' ρ' _ hagree
  refine ⟨fun c => Cert.Gcn.gcnOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.W7_v59 m ρ c), (h c).2⟩)
      (Cert.KernelIdeal.RunValue.run m ρ)
  · refine (θ_run Cert.ReferenceIdeal.defs _ _).mono (fun _ h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
